-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1152x32x17 : Shape := ⟨4, ![64, 1152, 32, 17]⟩
abbrev S1x32x1x1 : Shape := ⟨4, ![1, 32, 1, 1]⟩
abbrev S1x32x1 : Shape := ⟨3, ![1, 32, 1]⟩
abbrev S_ : Shape := ⟨0, ![]⟩

class Facts : Prop where
  bcast_S_S64x1152x32x17 : S_.BroadcastsInDim S64x1152x32x17 (![] : Fin 0 → Fin S64x1152x32x17.rank)
  reducesTo_S64x1152x32x17_S_d0_1_2_3 : S64x1152x32x17.ReducesTo [0, 1, 2, 3] S_
  h_S_ : 0 < S_.numel
  bcast_S_S1x32x1x1 : S_.BroadcastsInDim S1x32x1x1 (![] : Fin 0 → Fin S1x32x1x1.rank)
  reducesTo_S1x32x1x1_S_d0_1_2_3 : S1x32x1x1.ReducesTo [0, 1, 2, 3] S_
  bcast_S_S1x32x1 : S_.BroadcastsInDim S1x32x1 (![] : Fin 0 → Fin S1x32x1.rank)
  reducesTo_S1x32x1_S_d0_1_2 : S1x32x1.ReducesTo [0, 1, 2] S_

variable [Facts]

def fn {F : FTy → Type} [FloatOps F] (main_arg0 : FVec F S64x1152x32x17 .f32) (main_arg1 : FVec F S1x32x1x1 .f32) (main_arg2 : FVec F S1x32x1 .f32) : IVec S_ 1 :=
  let main_v0 : FVec F S64x1152x32x17 .f32 := Host.absf main_arg0
  let main_cst : FVec F S_ .f32 := constant S_ .f32 0x7F800000#32
  let main_v1 : FVec F S64x1152x32x17 .f32 := broadcastInDim S64x1152x32x17 ![] bcast_S_S64x1152x32x17 main_cst
  let main_v2 : IVec S64x1152x32x17 1 := cmpf .olt main_v0 main_v1
  let main_c : IVec S_ 1 := constantI S_ 1 1#1
  let main_v3 : IVec S_ 1 := (fun x v => Host.reduce IntOp.andi x v reducesTo_S64x1152x32x17_S_d0_1_2_3 h_S_) main_v2 main_c
  let main_v4 : FVec F S1x32x1x1 .f32 := Host.absf main_arg1
  let main_cst_0 : FVec F S_ .f32 := constant S_ .f32 0x7F800000#32
  let main_v5 : FVec F S1x32x1x1 .f32 := broadcastInDim S1x32x1x1 ![] bcast_S_S1x32x1x1 main_cst_0
  let main_v6 : IVec S1x32x1x1 1 := cmpf .olt main_v4 main_v5
  let main_c_1 : IVec S_ 1 := constantI S_ 1 1#1
  let main_v7 : IVec S_ 1 := (fun x v => Host.reduce IntOp.andi x v reducesTo_S1x32x1x1_S_d0_1_2_3 h_S_) main_v6 main_c_1
  let main_v8 : IVec S_ 1 := andi main_v3 main_v7
  let main_v9 : FVec F S1x32x1 .f32 := Host.absf main_arg2
  let main_cst_2 : FVec F S_ .f32 := constant S_ .f32 0x7F800000#32
  let main_v10 : FVec F S1x32x1 .f32 := broadcastInDim S1x32x1 ![] bcast_S_S1x32x1 main_cst_2
  let main_v11 : IVec S1x32x1 1 := cmpf .olt main_v9 main_v10
  let main_c_3 : IVec S_ 1 := constantI S_ 1 1#1
  let main_v12 : IVec S_ 1 := (fun x v => Host.reduce IntOp.andi x v reducesTo_S1x32x1_S_d0_1_2 h_S_) main_v11 main_c_3
  let main_v13 : IVec S_ 1 := andi main_v8 main_v12
  main_v13
-- ==== Kernel.lean ====
abbrev S64x1152x32x17 : Shape := ⟨4, ![64, 1152, 32, 17]⟩
abbrev S1x32x1x1 : Shape := ⟨4, ![1, 32, 1, 1]⟩
abbrev S1x32x1 : Shape := ⟨3, ![1, 32, 1]⟩
abbrev S64x32x17x1152 : Shape := ⟨4, ![64, 32, 17, 1152]⟩
abbrev S64x32x17 : Shape := ⟨3, ![64, 32, 17]⟩
abbrev S1x32x17x1152 : Shape := ⟨4, ![1, 32, 17, 1152]⟩
abbrev S1x32x17 : Shape := ⟨3, ![1, 32, 17]⟩
abbrev S32x17x1152 : Shape := ⟨3, ![32, 17, 1152]⟩
abbrev S32x16x1152 : Shape := ⟨3, ![32, 16, 1152]⟩
abbrev S32x1x1152 : Shape := ⟨3, ![32, 1, 1152]⟩
abbrev S32x1152 : Shape := ⟨2, ![32, 1152]⟩
abbrev S32x1x1 : Shape := ⟨3, ![32, 1, 1]⟩
abbrev S32x1 : Shape := ⟨2, ![32, 1]⟩
abbrev S32x16 : Shape := ⟨2, ![32, 16]⟩
abbrev S32 : Shape := ⟨1, ![32]⟩
abbrev S32x16x1 : Shape := ⟨3, ![32, 16, 1]⟩
abbrev S1152 : Shape := ⟨1, ![1152]⟩
abbrev S1x1152 : Shape := ⟨2, ![1, 1152]⟩
abbrev S1x32x16 : Shape := ⟨3, ![1, 32, 16]⟩

abbrev nBuf : Space → Nat
  | .hbm => 5
  | .vmem => 6
  | .smem => 0
  | _ => 0

abbrev bufTy : (tb : Table) → Fin (tcTables nBuf tb) → BufTy
  | .hbm, ⟨0, _⟩ => ⟨S64x1152x32x17, .f32⟩
  | .hbm, ⟨1, _⟩ => ⟨S1x32x1x1, .f32⟩
  | .hbm, ⟨2, _⟩ => ⟨S1x32x1, .f32⟩
  | .hbm, ⟨3, _⟩ => ⟨S64x32x17x1152, .f32⟩
  | .hbm, ⟨4, _⟩ => ⟨S64x32x17, .f32⟩
  | .local _ .vmem, ⟨0, _⟩ => ⟨S1x32x17x1152, .f32⟩
  | .local _ .vmem, ⟨1, _⟩ => ⟨S1x32x17x1152, .f32⟩
  | .local _ .vmem, ⟨2, _⟩ => ⟨S1x32x1x1, .f32⟩
  | .local _ .vmem, ⟨3, _⟩ => ⟨S1x32x1, .f32⟩
  | .local _ .vmem, ⟨4, _⟩ => ⟨S1x32x17, .f32⟩
  | .local _ .vmem, ⟨5, _⟩ => ⟨S1x32x17, .f32⟩
  | _, _ => ⟨S64x1152x32x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x17x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x17 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x1152x32x17_S64x32x17x1152_0_2_3_1 : S64x1152x32x17.Transposes [0, 2, 3, 1] S64x32x17x1152
  inb_S1x32x17x1152_S1x32x17x1152_0_0_0_0 : ∀ a, (![0, 0, 0, 0] : Fin 4 → Nat) a + S1x32x17x1152.size a ≤ S1x32x17x1152.size a
  h_S1x32x17x1152 : 0 < S1x32x17x1152.numel
  shapeCasts_S1x32x17x1152_S32x17x1152 : S1x32x17x1152.ShapeCasts S32x17x1152
  slices_S32x17x1152_o0_0_0_S32x16x1152 : S32x17x1152.Slices ![0, 0, 0] S32x16x1152
  slices_S32x17x1152_o0_16_0_S32x1x1152 : S32x17x1152.Slices ![0, 16, 0] S32x1x1152
  shapeCasts_S32x1x1152_S32x1152 : S32x1x1152.ShapeCasts S32x1152
  inb_S1x32x1x1_S1x32x1x1_0_0_0_0 : ∀ a, (![0, 0, 0, 0] : Fin 4 → Nat) a + S1x32x1x1.size a ≤ S1x32x1x1.size a
  h_S1x32x1x1 : 0 < S1x32x1x1.numel
  shapeCasts_S1x32x1x1_S32x1x1 : S1x32x1x1.ShapeCasts S32x1x1
  shapeCasts_S32x1x1_S32x1 : S32x1x1.ShapeCasts S32x1
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1152_S32x1x1152 : S32x1152.ShapeCasts S32x1x1152
  broadcasts_S32x1x1152_S32x16x1152 : S32x1x1152.Broadcasts S32x16x1152
  reduces_S32x16x1152_S32x16 : S32x16x1152.Reduces [2] S32x16
  reduces_S32x1152_S32 : S32x1152.Reduces [1] S32
  shapeCasts_S32_S32x1 : S32.ShapeCasts S32x1
  broadcasts_S32x1_S32x16 : S32x1.Broadcasts S32x16
  shapeCasts_S32x16_S32x16x1 : S32x16.ShapeCasts S32x16x1
  broadcasts_S32x16x1_S32x16x1152 : S32x16x1.Broadcasts S32x16x1152
  reduces_S32x16_S32 : S32x16.Reduces [1] S32
  reduces_S32x16x1152_S32x1152 : S32x16x1152.Reduces [1] S32x1152
  broadcasts_S32x1_S32x1152 : S32x1.Broadcasts S32x1152
  reduces_S32x1152_S1152 : S32x1152.Reduces [0] S1152
  shapeCasts_S1152_S1x1152 : S1152.ShapeCasts S1x1152
  broadcasts_S1x1152_S32x1152 : S1x1152.Broadcasts S32x1152
  inb_S1x32x17_S1x32x16_0_0_0 : ∀ a, (![0, 0, 0] : Fin 3 → Nat) a + S1x32x16.size a ≤ S1x32x17.size a
  h_S1x32x16 : 0 < S1x32x16.numel
  shapeCasts_S1x32x16_S32x16 : S1x32x16.ShapeCasts S32x16
  shapeCasts_S32x16_S1x32x16 : S32x16.ShapeCasts S1x32x16
  inb_S1x32x17_S1x32x1_0_0_16 : ∀ a, (![0, 0, 16] : Fin 3 → Nat) a + S1x32x1.size a ≤ S1x32x17.size a
  shapeCasts_S32x1_S1x32x1 : S32x1.ShapeCasts S1x32x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x17x1152.size a ≤ S64x32x17x1152.size a
  hwx0_0 : ∀ i : grid0.Coords, EltTy.bits .f32 = 32 ∨ (Rect.block (s := S64x32x17x1152) S1x32x17x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32x1x1.size a ≤ S1x32x1x1.size a
  hwx0_1 : ∀ i : grid0.Coords, EltTy.bits .f32 = 32 ∨ (Rect.block (s := S1x32x1x1) S1x32x1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32x1.size a ≤ S1x32x1.size a
  hwx0_2 : ∀ i : grid0.Coords, EltTy.bits .f32 = 32 ∨ (Rect.block (s := S1x32x1) S1x32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x17.size a ≤ S64x32x17.size a
  hwx0_3 : ∀ i : grid0.Coords, EltTy.bits .f32 = 32 ∨ (Rect.block (s := S64x32x17) S1x32x17.size (cc0_transform_3 i) (hinb0_3 i)).WholeWords (EltTy.packing .f32)

variable [Facts₀]

abbrev win0_0 : Pipeline.Window sig grid0 :=
  Pipeline.Window.ofSpec (Memref.whole main_call0_v0) S1x32x17x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32x17.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1152x32x17 : Shape := ⟨4, ![64, 1152, 32, 17]⟩
abbrev S1x32x1x1 : Shape := ⟨4, ![1, 32, 1, 1]⟩
abbrev S1x32x1 : Shape := ⟨3, ![1, 32, 1]⟩
abbrev S64x1152x32x16 : Shape := ⟨4, ![64, 1152, 32, 16]⟩
abbrev S64x1152x32x1 : Shape := ⟨4, ![64, 1152, 32, 1]⟩
abbrev S64x1152x32 : Shape := ⟨3, ![64, 1152, 32]⟩
abbrev S_ : Shape := ⟨0, ![]⟩
abbrev S64x32x1 : Shape := ⟨3, ![64, 32, 1]⟩
abbrev S64x32x16 : Shape := ⟨3, ![64, 32, 16]⟩
abbrev S64x1x32x16 : Shape := ⟨4, ![64, 1, 32, 16]⟩
abbrev S64x32x1x16 : Shape := ⟨4, ![64, 32, 1, 16]⟩
abbrev S64x32x1x1 : Shape := ⟨4, ![64, 32, 1, 1]⟩
abbrev S64x32 : Shape := ⟨2, ![64, 32]⟩
abbrev S64x1x32 : Shape := ⟨3, ![64, 1, 32]⟩
abbrev S64x1152 : Shape := ⟨2, ![64, 1152]⟩
abbrev S64x1152x1 : Shape := ⟨3, ![64, 1152, 1]⟩
abbrev S64x32x17 : Shape := ⟨3, ![64, 32, 17]⟩

abbrev nBuf : Space → Nat
  | .hbm => 238
  | .vmem => 0
  | .smem => 0
  | _ => 0

abbrev hbmTy0_0 (i : Nat) : BufTy := match i % 128 with
  | 0 => ⟨S64x1152x32x17, .f32⟩
  | 1 => ⟨S1x32x1x1, .f32⟩
  | 2 => ⟨S1x32x1, .f32⟩
  | 3 => ⟨S64x1152x32x16, .f32⟩
  | 4 => ⟨S64x1152x32x1, .f32⟩
  | 5 => ⟨S64x1152x32, .f32⟩
  | 6 => ⟨S_, .f32⟩
  | 7 => ⟨S64x1152x32, .f32⟩
  | 8 => ⟨S64x1152x32, .f32⟩
  | 9 => ⟨S64x1152x32x1, .f32⟩
  | 10 => ⟨S_, .f32⟩
  | 11 => ⟨S64x32x1, .f32⟩
  | 12 => ⟨S_, .f32⟩
  | 13 => ⟨S64x32x1, .f32⟩
  | 14 => ⟨S64x32x1, .f32⟩
  | 15 => ⟨S64x1152x32x16, .f32⟩
  | 16 => ⟨S64x1152x32x16, .f32⟩
  | 17 => ⟨S_, .f32⟩
  | 18 => ⟨S64x32x16, .f32⟩
  | 19 => ⟨S64x32x16, .f32⟩
  | 20 => ⟨S64x32x16, .f32⟩
  | 21 => ⟨S64x1x32x16, .f32⟩
  | 22 => ⟨S64x1152x32x16, .f32⟩
  | 23 => ⟨S64x1152x32x16, .f32⟩
  | 24 => ⟨S64x1152x32x16, .f32⟩
  | 25 => ⟨S_, .f32⟩
  | 26 => ⟨S64x1152x32x16, .f32⟩
  | 27 => ⟨S64x1152x32x16, .f32⟩
  | 28 => ⟨S64x1152x32x16, .f32⟩
  | 29 => ⟨S64x1152x32x16, .f32⟩
  | 30 => ⟨S_, .f32⟩
  | 31 => ⟨S64x32x16, .f32⟩
  | 32 => ⟨S64x32x16, .f32⟩
  | 33 => ⟨S64x32x16, .f32⟩
  | 34 => ⟨S64x1x32x16, .f32⟩
  | 35 => ⟨S_, .f32⟩
  | 36 => ⟨S64x1x32x16, .f32⟩
  | 37 => ⟨S64x1x32x16, .f32⟩
  | 38 => ⟨S64x1x32x16, .f32⟩
  | 39 => ⟨S_, .f32⟩
  | 40 => ⟨S64x1x32x16, .f32⟩
  | 41 => ⟨S64x1x32x16, .f32⟩
  | 42 => ⟨S64x1x32x16, .f32⟩
  | 43 => ⟨S64x32x1x16, .f32⟩
  | 44 => ⟨S64x32x1x16, .f32⟩
  | 45 => ⟨S64x32x1x16, .f32⟩
  | 46 => ⟨S64x32x1x1, .f32⟩
  | 47 => ⟨S64x32x1x16, .f32⟩
  | 48 => ⟨S64x32x1x16, .f32⟩
  | 49 => ⟨S_, .f32⟩
  | 50 => ⟨S64x32x1, .f32⟩
  | 51 => ⟨S64x32x1, .f32⟩
  | 52 => ⟨S64x32x1, .f32⟩
  | 53 => ⟨S_, .f32⟩
  | 54 => ⟨S64x32x1, .f32⟩
  | 55 => ⟨S64x32x1, .f32⟩
  | 56 => ⟨S64x32x1, .f32⟩
  | 57 => ⟨S64x32x1, .f32⟩
  | 58 => ⟨S_, .f32⟩
  | 59 => ⟨S64x32x1, .f32⟩
  | 60 => ⟨S64x32x1, .f32⟩
  | 61 => ⟨S_, .f32⟩
  | 62 => ⟨S64x32x1, .f32⟩
  | 63 => ⟨S64x32x1, .f32⟩
  | 64 => ⟨S64x32, .f32⟩
  | 65 => ⟨S64x1152x32x16, .f32⟩
  | 66 => ⟨S_, .f32⟩
  | 67 => ⟨S64x1x32x16, .f32⟩
  | 68 => ⟨S64x1x32x16, .f32⟩
  | 69 => ⟨S64x1152x32x16, .f32⟩
  | 70 => ⟨S64x1152x32x16, .f32⟩
  | 71 => ⟨S64x1152x32x16, .f32⟩
  | 72 => ⟨S64x1152x32x16, .f32⟩
  | 73 => ⟨S_, .f32⟩
  | 74 => ⟨S64x1152x32x16, .f32⟩
  | 75 => ⟨S64x1152x32x16, .f32⟩
  | 76 => ⟨S64x1x32, .f32⟩
  | 77 => ⟨S64x1152x32x16, .f32⟩
  | 78 => ⟨S_, .f32⟩
  | 79 => ⟨S64x1152x32, .f32⟩
  | 80 => ⟨S64x1152x32, .f32⟩
  | 81 => ⟨S64x1152x32, .f32⟩
  | 82 => ⟨S_, .f32⟩
  | 83 => ⟨S64x1152, .f32⟩
  | 84 => ⟨S64x1152x1, .f32⟩
  | 85 => ⟨S_, .f32⟩
  | 86 => ⟨S64x1152x1, .f32⟩
  | 87 => ⟨S64x1152x1, .f32⟩
  | 88 => ⟨S64x1152x32, .f32⟩
  | 89 => ⟨S64x1152x32, .f32⟩
  | 90 => ⟨S_, .f32⟩
  | 91 => ⟨S64x1152x32, .f32⟩
  | 92 => ⟨S64x1152x32, .f32⟩
  | 93 => ⟨S64x1152x32, .f32⟩
  | 94 => ⟨S64x1152x32x1, .f32⟩
  | 95 => ⟨S_, .f32⟩
  | 96 => ⟨S64x32x1, .f32⟩
  | 97 => ⟨S_, .f32⟩
  | 98 => ⟨S64x32x1, .f32⟩
  | 99 => ⟨S64x32x1, .f32⟩
  | 100 => ⟨S64x1152x32x16, .f32⟩
  | 101 => ⟨S64x1152x32x16, .f32⟩
  | 102 => ⟨S_, .f32⟩
  | 103 => ⟨S64x32x16, .f32⟩
  | 104 => ⟨S64x32x16, .f32⟩
  | 105 => ⟨S64x32x16, .f32⟩
  | 106 => ⟨S64x1x32x16, .f32⟩
  | 107 => ⟨S64x1152x32x16, .f32⟩
  | 108 => ⟨S64x1152x32x16, .f32⟩
  | 109 => ⟨S64x1152x32x16, .f32⟩
  | 110 => ⟨S_, .f32⟩
  | 111 => ⟨S64x1152x32x16, .f32⟩
  | 112 => ⟨S64x1152x32x16, .f32⟩
  | 113 => ⟨S64x1152x32x16, .f32⟩
  | 114 => ⟨S64x1152x32x16, .f32⟩
  | 115 => ⟨S_, .f32⟩
  | 116 => ⟨S64x32x16, .f32⟩
  | 117 => ⟨S64x32x16, .f32⟩
  | 118 => ⟨S64x32x16, .f32⟩
  | 119 => ⟨S64x1x32x16, .f32⟩
  | 120 => ⟨S_, .f32⟩
  | 121 => ⟨S64x1x32x16, .f32⟩
  | 122 => ⟨S64x1x32x16, .f32⟩
  | 123 => ⟨S64x1x32x16, .f32⟩
  | 124 => ⟨S_, .f32⟩
  | 125 => ⟨S64x1x32x16, .f32⟩
  | 126 => ⟨S64x1x32x16, .f32⟩
  | 127 => ⟨S64x1x32x16, .f32⟩
  | _ => ⟨S64x1152x32x17, .f32⟩

abbrev hbmTy0_1 (i : Nat) : BufTy := match i % 128 with
  | 0 => ⟨S64x32x1x16, .f32⟩
  | 1 => ⟨S64x32x1x16, .f32⟩
  | 2 => ⟨S64x32x1x16, .f32⟩
  | 3 => ⟨S64x32x1x1, .f32⟩
  | 4 => ⟨S64x32x1x16, .f32⟩
  | 5 => ⟨S64x32x1x16, .f32⟩
  | 6 => ⟨S_, .f32⟩
  | 7 => ⟨S64x32x1, .f32⟩
  | 8 => ⟨S64x32x1, .f32⟩
  | 9 => ⟨S64x32x1, .f32⟩
  | 10 => ⟨S_, .f32⟩
  | 11 => ⟨S64x32x1, .f32⟩
  | 12 => ⟨S64x32x1, .f32⟩
  | 13 => ⟨S64x32x1, .f32⟩
  | 14 => ⟨S64x32x1, .f32⟩
  | 15 => ⟨S_, .f32⟩
  | 16 => ⟨S64x32x1, .f32⟩
  | 17 => ⟨S64x32x1, .f32⟩
  | 18 => ⟨S_, .f32⟩
  | 19 => ⟨S64x32x1, .f32⟩
  | 20 => ⟨S64x32x1, .f32⟩
  | 21 => ⟨S64x32, .f32⟩
  | 22 => ⟨S64x1152x32x16, .f32⟩
  | 23 => ⟨S_, .f32⟩
  | 24 => ⟨S64x1x32x16, .f32⟩
  | 25 => ⟨S64x1x32x16, .f32⟩
  | 26 => ⟨S64x1152x32x16, .f32⟩
  | 27 => ⟨S64x1152x32x16, .f32⟩
  | 28 => ⟨S64x1152x32x16, .f32⟩
  | 29 => ⟨S64x1152x32x16, .f32⟩
  | 30 => ⟨S_, .f32⟩
  | 31 => ⟨S64x1152x32x16, .f32⟩
  | 32 => ⟨S64x1152x32x16, .f32⟩
  | 33 => ⟨S64x1x32, .f32⟩
  | 34 => ⟨S64x1152x32x16, .f32⟩
  | 35 => ⟨S_, .f32⟩
  | 36 => ⟨S64x1152x32, .f32⟩
  | 37 => ⟨S64x1152x32, .f32⟩
  | 38 => ⟨S64x1152x32, .f32⟩
  | 39 => ⟨S_, .f32⟩
  | 40 => ⟨S64x1152, .f32⟩
  | 41 => ⟨S64x1152x1, .f32⟩
  | 42 => ⟨S_, .f32⟩
  | 43 => ⟨S64x1152x1, .f32⟩
  | 44 => ⟨S64x1152x1, .f32⟩
  | 45 => ⟨S64x1152x32, .f32⟩
  | 46 => ⟨S64x1152x32, .f32⟩
  | 47 => ⟨S_, .f32⟩
  | 48 => ⟨S64x1152x32, .f32⟩
  | 49 => ⟨S64x1152x32, .f32⟩
  | 50 => ⟨S64x1152x32, .f32⟩
  | 51 => ⟨S64x1152x32x1, .f32⟩
  | 52 => ⟨S_, .f32⟩
  | 53 => ⟨S64x32x1, .f32⟩
  | 54 => ⟨S_, .f32⟩
  | 55 => ⟨S64x32x1, .f32⟩
  | 56 => ⟨S64x32x1, .f32⟩
  | 57 => ⟨S64x1152x32x16, .f32⟩
  | 58 => ⟨S64x1152x32x16, .f32⟩
  | 59 => ⟨S_, .f32⟩
  | 60 => ⟨S64x32x16, .f32⟩
  | 61 => ⟨S64x32x16, .f32⟩
  | 62 => ⟨S64x32x16, .f32⟩
  | 63 => ⟨S64x1x32x16, .f32⟩
  | 64 => ⟨S64x1152x32x16, .f32⟩
  | 65 => ⟨S64x1152x32x16, .f32⟩
  | 66 => ⟨S64x1152x32x16, .f32⟩
  | 67 => ⟨S_, .f32⟩
  | 68 => ⟨S64x1152x32x16, .f32⟩
  | 69 => ⟨S64x1152x32x16, .f32⟩
  | 70 => ⟨S64x1152x32x16, .f32⟩
  | 71 => ⟨S64x1152x32x16, .f32⟩
  | 72 => ⟨S_, .f32⟩
  | 73 => ⟨S64x32x16, .f32⟩
  | 74 => ⟨S64x32x16, .f32⟩
  | 75 => ⟨S64x32x16, .f32⟩
  | 76 => ⟨S64x1x32x16, .f32⟩
  | 77 => ⟨S_, .f32⟩
  | 78 => ⟨S64x1x32x16, .f32⟩
  | 79 => ⟨S64x1x32x16, .f32⟩
  | 80 => ⟨S64x1x32x16, .f32⟩
  | 81 => ⟨S_, .f32⟩
  | 82 => ⟨S64x1x32x16, .f32⟩
  | 83 => ⟨S64x1x32x16, .f32⟩
  | 84 => ⟨S64x1x32x16, .f32⟩
  | 85 => ⟨S64x32x1x16, .f32⟩
  | 86 => ⟨S64x32x1x16, .f32⟩
  | 87 => ⟨S64x32x1x16, .f32⟩
  | 88 => ⟨S64x32x1x1, .f32⟩
  | 89 => ⟨S64x32x1x16, .f32⟩
  | 90 => ⟨S64x32x1x16, .f32⟩
  | 91 => ⟨S_, .f32⟩
  | 92 => ⟨S64x32x1, .f32⟩
  | 93 => ⟨S64x32x1, .f32⟩
  | 94 => ⟨S64x32x1, .f32⟩
  | 95 => ⟨S_, .f32⟩
  | 96 => ⟨S64x32x1, .f32⟩
  | 97 => ⟨S64x32x1, .f32⟩
  | 98 => ⟨S64x32x1, .f32⟩
  | 99 => ⟨S64x32x1, .f32⟩
  | 100 => ⟨S_, .f32⟩
  | 101 => ⟨S64x32x1, .f32⟩
  | 102 => ⟨S64x32x1, .f32⟩
  | 103 => ⟨S_, .f32⟩
  | 104 => ⟨S64x32x1, .f32⟩
  | 105 => ⟨S64x32x1, .f32⟩
  | 106 => ⟨S64x32, .f32⟩
  | 107 => ⟨S64x32x16, .f32⟩
  | 108 => ⟨S64x32x1, .f32⟩
  | 109 => ⟨S64x32x17, .f32⟩
  | _ => ⟨S64x1152x32x17, .f32⟩

abbrev hbmTy (i : Nat) : BufTy := match i / 128 with
  | 0 => hbmTy0_0 i
  | 1 => hbmTy0_1 i
  | _ => ⟨S64x1152x32x17, .f32⟩

abbrev bufTy : (tb : Table) → Fin (tcTables nBuf tb) → BufTy
  | .hbm, ⟨i, _⟩ => hbmTy i
  | _, _ => ⟨S64x1152x32x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_11 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_14 : Ref sig .tc := ⟨.hbm, 82, rfl⟩
abbrev main_v64 : Ref sig .tc := ⟨.hbm, 83, rfl⟩
abbrev main_v65 : Ref sig .tc := ⟨.hbm, 84, rfl⟩
abbrev main_cst_15 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_16 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_17 : Ref sig .tc := ⟨.hbm, 95, rfl⟩
abbrev main_v74 : Ref sig .tc := ⟨.hbm, 96, rfl⟩
abbrev main_cst_18 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_19 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_20 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_21 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_22 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_23 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_24 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_25 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_26 : Ref sig .tc := ⟨.hbm, 143, rfl⟩
abbrev main_v113 : Ref sig .tc := ⟨.hbm, 144, rfl⟩
abbrev main_v114 : Ref sig .tc := ⟨.hbm, 145, rfl⟩
abbrev main_cst_27 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_28 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_29 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_30 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_31 : Ref sig .tc := ⟨.hbm, 167, rfl⟩
abbrev main_v132 : Ref sig .tc := ⟨.hbm, 168, rfl⟩
abbrev main_v133 : Ref sig .tc := ⟨.hbm, 169, rfl⟩
abbrev main_cst_32 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_33 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_34 : Ref sig .tc := ⟨.hbm, 180, rfl⟩
abbrev main_v142 : Ref sig .tc := ⟨.hbm, 181, rfl⟩
abbrev main_cst_35 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_36 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_37 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_38 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_39 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_cst_40 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_cst_41 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_cst_42 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_cst_43 : Ref sig .tc := ⟨.hbm, 228, rfl⟩
abbrev main_v181 : Ref sig .tc := ⟨.hbm, 229, rfl⟩
abbrev main_v182 : Ref sig .tc := ⟨.hbm, 230, rfl⟩
abbrev main_cst_44 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩

abbrev nD : Nat := 1
abbrev τ : Topo := Topo.v7x

variable {F : FTy → Type} [FloatOps F]

class Facts₀ : Prop where
  slices_S64x1152x32x17_S64x1152x32x16_0_0_0_0 : S64x1152x32x17.Slices ![0, 0, 0, 0] S64x1152x32x16
  slices_S64x1152x32x17_S64x1152x32x1_0_0_0_16 : S64x1152x32x17.Slices ![0, 0, 0, 16] S64x1152x32x1
  shapeCasts_S64x1152x32x1_S64x1152x32 : S64x1152x32x1.ShapeCasts S64x1152x32
  bcast_S_S64x1152x32 : S_.BroadcastsInDim S64x1152x32 (![] : Fin 0 → Fin S64x1152x32.rank)
  bcast_S64x1152x32_S64x1152x32x1_0_1_2 : S64x1152x32.BroadcastsInDim S64x1152x32x1 (![0, 1, 2] : Fin 3 → Fin S64x1152x32x1.rank)
  reducesTo_S64x1152x32x1_S64x32x1_d1 : S64x1152x32x1.ReducesTo [1] S64x32x1
  h_S_ : 0 < S_.numel
  bcast_S_S64x32x1 : S_.BroadcastsInDim S64x32x1 (![] : Fin 0 → Fin S64x32x1.rank)
  bcast_S64x1152x32x1_S64x1152x32x16_0_1_2_3 : S64x1152x32x1.BroadcastsInDim S64x1152x32x16 (![0, 1, 2, 3] : Fin 4 → Fin S64x1152x32x16.rank)
  reducesTo_S64x1152x32x16_S64x32x16_d1 : S64x1152x32x16.ReducesTo [1] S64x32x16
  bcast_S64x32x1_S64x32x16_0_1_2 : S64x32x1.BroadcastsInDim S64x32x16 (![0, 1, 2] : Fin 3 → Fin S64x32x16.rank)
  bcast_S64x32x16_S64x1x32x16_0_2_3 : S64x32x16.BroadcastsInDim S64x1x32x16 (![0, 2, 3] : Fin 3 → Fin S64x1x32x16.rank)
  bcast_S64x1x32x16_S64x1152x32x16_0_1_2_3 : S64x1x32x16.BroadcastsInDim S64x1152x32x16 (![0, 1, 2, 3] : Fin 4 → Fin S64x1152x32x16.rank)
  bcast_S_S64x1152x32x16 : S_.BroadcastsInDim S64x1152x32x16 (![] : Fin 0 → Fin S64x1152x32x16.rank)
  bcast_S_S64x1x32x16 : S_.BroadcastsInDim S64x1x32x16 (![] : Fin 0 → Fin S64x1x32x16.rank)
  shapeCasts_S64x1x32x16_S64x32x1x16 : S64x1x32x16.ShapeCasts S64x32x1x16
  bcast_S1x32x1x1_S64x32x1x16_0_1_2_3 : S1x32x1x1.BroadcastsInDim S64x32x1x16 (![0, 1, 2, 3] : Fin 4 → Fin S64x32x1x16.rank)
  shapeCasts_S64x32x1_S64x32x1x1 : S64x32x1.ShapeCasts S64x32x1x1
  bcast_S64x32x1x1_S64x32x1x16_0_1_2_3 : S64x32x1x1.BroadcastsInDim S64x32x1x16 (![0, 1, 2, 3] : Fin 4 → Fin S64x32x1x16.rank)
  reducesTo_S64x32x1x16_S64x32x1_d3 : S64x32x1x16.ReducesTo [3] S64x32x1
  bcast_S1x32x1_S64x32x1_0_1_2 : S1x32x1.BroadcastsInDim S64x32x1 (![0, 1, 2] : Fin 3 → Fin S64x32x1.rank)
  shapeCasts_S64x32x1_S64x32 : S64x32x1.ShapeCasts S64x32
  bcast_S64x32_S64x1x32_0_2 : S64x32.BroadcastsInDim S64x1x32 (![0, 2] : Fin 2 → Fin S64x1x32.rank)
  reducesTo_S64x1152x32x16_S64x1152x32_d3 : S64x1152x32x16.ReducesTo [3] S64x1152x32
  bcast_S64x1x32_S64x1152x32_0_1_2 : S64x1x32.BroadcastsInDim S64x1152x32 (![0, 1, 2] : Fin 3 → Fin S64x1152x32.rank)
  reducesTo_S64x1152x32_S64x1152_d2 : S64x1152x32.ReducesTo [2] S64x1152
  bcast_S64x1152_S64x1152x1_0_1 : S64x1152.BroadcastsInDim S64x1152x1 (![0, 1] : Fin 2 → Fin S64x1152x1.rank)
  bcast_S_S64x1152x1 : S_.BroadcastsInDim S64x1152x1 (![] : Fin 0 → Fin S64x1152x1.rank)
  bcast_S64x1152x1_S64x1152x32_0_1_2 : S64x1152x1.BroadcastsInDim S64x1152x32 (![0, 1, 2] : Fin 3 → Fin S64x1152x32.rank)
  shapeCasts_S64x1x32x16_S64x32x16 : S64x1x32x16.ShapeCasts S64x32x16
  shapeCasts_S64x32_S64x32x1 : S64x32.ShapeCasts S64x32x1
  concatenates_S64x32x16_S64x32x1_S64x32x17_d2 : Shape.Concatenates [S64x32x16, S64x32x1] S64x32x17 2

variable [Facts₀]

class Facts : Prop extends Facts₀ where

variable [Facts]
-- ==== Proof.Routing.lean ====
/-
  Expectation–maximisation routing between 1152 input capsules (index `k`) and 32 output capsules (index `c`),
  written over plain index types on the extended reals.

  Every input capsule casts, for every output capsule, a vote: a pose of 16 coordinates (index `p`) and one
  activation. One pass starts from the responsibilities already multiplied by the input activations,
  `r c k`, and computes for each output capsule
    • its mass                      `mass r c   = Σ_k r c k + 1e-4`,
    • the weighted mean pose        `mean r c p = (Σ_k r c k · V c p k) / mass r c`,
    • the squared deviations        `dev2 r c p k = (V c p k − mean r c p)² + 1e-10`,
    • the weighted variance         `var r c p  = (Σ_k r c k · dev2 r c p k) / mass r c + 1e-10`,
    • the log standard deviation    `logsd r c p = log (√(var r c p) + 1e-10)`,
    • the output activation         `act λ r c  = logistic (λ · (β_a c − Σ_p (β_v c + logsd r c p) · mass r c))`,
  and then, for the next pass, the Gaussian likelihood of every vote under every output capsule, weighted by
  that capsule's activation, `lik λ r c k`, normalised over the output capsules and multiplied by the input
  activation again: `next λ r c k`. Three passes are made, with the inverse temperatures λ₁, λ₂, λ₃; the result
  is the third pass's mean pose (columns 0…15) and output activation (column 16).

  The constants are the binary values of the single-precision words both programs carry.
-/
import Idealize.ShloMosaic.PureOps.Ideal
import Idealize.ShloMosaic.Lib.ValueIdx

noncomputable section

namespace Routing

open Idealize.ShloMosaic Idealize.ShloMosaic.ValueIdx

/-- 1/32: the uniform responsibility the first pass starts from. -/
def inv32 : EReal := Ideal.ofBits .f32 0x3D000000#32
/-- 1e-4 as a single-precision word: the guard added to a capsule's mass. -/
def eps4 : EReal := Ideal.ofBits .f32 0x38D1B717#32
/-- 1e-10 as a single-precision word: the guard added to deviations, variances, roots and normalisers. -/
def eps10 : EReal := Ideal.ofBits .f32 0x2EDBE6FF#32
/-- 2. -/
def two : EReal := Ideal.ofBits .f32 0x40000000#32
/-- ½·log 2π as a single-precision word. -/
def halfLog2pi : EReal := Ideal.ofBits .f32 0x3F6B3F8E#32
/-- The three passes' inverse temperatures 0.01·(1 − 0.95ⁱ), i = 1, 2, 3, as single-precision words. -/
def lam1 : EReal := Ideal.ofBits .f32 0x3A03126F#32
def lam2 : EReal := Ideal.ofBits .f32 0x3A7F9724#32
def lam3 : EReal := Ideal.ofBits .f32 0x3ABAF102#32

section Pass

variable (V : Fin 32 → Fin 16 → Fin 1152 → EReal) (A : Fin 32 → Fin 1152 → EReal) (bv ba : Fin 32 → EReal)

/-- An output capsule's mass: the sum of its weighted responsibilities, guarded. -/
def mass (r : Fin 32 → Fin 1152 → EReal) (c : Fin 32) : EReal := (∑ k, r c k) + eps4

/-- The weighted mean of the votes' poses. -/
def mean (r : Fin 32 → Fin 1152 → EReal) (c : Fin 32) (p : Fin 16) : EReal :=
  Ideal.div (∑ k, r c k * V c p k) (mass r c)

/-- A vote's squared deviation from the mean pose, guarded. -/
def dev2 (r : Fin 32 → Fin 1152 → EReal) (c : Fin 32) (p : Fin 16) (k : Fin 1152) : EReal :=
  (V c p k - mean V r c p) * (V c p k - mean V r c p) + eps10

/-- The weighted variance of the votes' poses, guarded. -/
def var (r : Fin 32 → Fin 1152 → EReal) (c : Fin 32) (p : Fin 16) : EReal :=
  Ideal.div (∑ k, r c k * dev2 V r c p k) (mass r c) + eps10

/-- The logarithm of the guarded standard deviation. -/
def logsd (r : Fin 32 → Fin 1152 → EReal) (c : Fin 32) (p : Fin 16) : EReal :=
  Ideal.log (Ideal.sqrt (var V r c p) + eps10)

/-- An output capsule's activation at inverse temperature `lam`. -/
def act (lam : EReal) (r : Fin 32 → Fin 1152 → EReal) (c : Fin 32) : EReal :=
  Ideal.logistic (lam * (ba c - ∑ p, (bv c + logsd V r c p) * mass r c))

/-- The likelihood of input capsule `k`'s vote under output capsule `c`, weighted by `c`'s activation. -/
def lik (lam : EReal) (r : Fin 32 → Fin 1152 → EReal) (c : Fin 32) (k : Fin 1152) : EReal :=
  act V bv ba lam r c
    * ∑ p, Ideal.exp (Ideal.div (-(dev2 V r c p k)) (two * var V r c p) - logsd V r c p - halfLog2pi)

/-- The next pass's weighted responsibilities: the likelihoods normalised over the output capsules, guarded,
    times the input activation. -/
def next (lam : EReal) (r : Fin 32 → Fin 1152 → EReal) (c : Fin 32) (k : Fin 1152) : EReal :=
  (Ideal.div (lik V bv ba lam r c k) ((∑ c', lik V bv ba lam r c' k) + eps10) + eps10) * A c k

/-- The first pass's weighted responsibilities: uniform over the output capsules. -/
def r1 (c : Fin 32) (k : Fin 1152) : EReal := inv32 * A c k
/-- The second pass's. -/
def r2 : Fin 32 → Fin 1152 → EReal := next V A bv ba lam1 (r1 A)
/-- The third pass's. -/
def r3 : Fin 32 → Fin 1152 → EReal := next V A bv ba lam2 (r2 V A bv ba)

/-- The routed output capsule `c`: its mean pose in columns 0…15, its activation in column 16. -/
def out (c : Fin 32) (h : Fin 17) : EReal :=
  if hh : h.val < 16 then mean V (r3 V A bv ba) c ⟨h.val, hh⟩ else act V bv ba lam3 (r3 V A bv ba) c

end Pass

/-! ## The arguments as the programs hold them -/

/-- The poses of batch element `b`'s votes: `votes[b, k, c, p]`, p < 16. -/
def poseOf (votes : (⟨4, ![64, 1152, 32, 17]⟩ : Shape).Idx → EReal) (b : Fin 64) : Fin 32 → Fin 16 → Fin 1152 → EReal :=
  fun c p k => votes (ix4 b k c (Fin.castSucc p))

/-- The input activations of batch element `b`: `votes[b, k, c, 16]`. -/
def actOf (votes : (⟨4, ![64, 1152, 32, 17]⟩ : Shape).Idx → EReal) (b : Fin 64) : Fin 32 → Fin 1152 → EReal :=
  fun c k => votes (ix4 b k c (Fin.last 16))

/-- `beta_v[0, c, 0, 0]`. -/
def biasV (betaV : (⟨4, ![1, 32, 1, 1]⟩ : Shape).Idx → EReal) : Fin 32 → EReal :=
  fun c => betaV (ix4 (0 : Fin 1) c (0 : Fin 1) (0 : Fin 1))

/-- `beta_a[0, c, 0]`. -/
def biasA (betaA : (⟨3, ![1, 32, 1]⟩ : Shape).Idx → EReal) : Fin 32 → EReal :=
  fun c => betaA (ix3 (0 : Fin 1) c (0 : Fin 1))

/-- The routed capsules of batch element `b`. -/
def result (votes : (⟨4, ![64, 1152, 32, 17]⟩ : Shape).Idx → EReal) (betaV : (⟨4, ![1, 32, 1, 1]⟩ : Shape).Idx → EReal)
    (betaA : (⟨3, ![1, 32, 1]⟩ : Shape).Idx → EReal) (b : Fin 64) (c : Fin 32) (h : Fin 17) : EReal :=
  out (poseOf votes b) (actOf votes b) (biasV betaV) (biasA betaA) c h

/-- The whole result array `[64, 32, 17]`. -/
def resultArr (votes : (⟨4, ![64, 1152, 32, 17]⟩ : Shape).Idx → EReal) (betaV : (⟨4, ![1, 32, 1, 1]⟩ : Shape).Idx → EReal)
    (betaA : (⟨3, ![1, 32, 1]⟩ : Shape).Idx → EReal) : (⟨3, ![64, 32, 17]⟩ : Shape).Idx → EReal :=
  fun i => result votes betaV betaA (i 0) (i 1) (i 2)

theorem resultArr_apply (votes : (⟨4, ![64, 1152, 32, 17]⟩ : Shape).Idx → EReal) (betaV : (⟨4, ![1, 32, 1, 1]⟩ : Shape).Idx → EReal)
    (betaA : (⟨3, ![1, 32, 1]⟩ : Shape).Idx → EReal) (b : Fin 64) (c : Fin 32) (h : Fin 17) :
    resultArr votes betaV betaA (ix3 b c h) = result votes betaV betaA b c h := rfl

end Routing

end
-- ==== Proof.KernelLayout.lean ====
/-
  The vector unit's sums over one axis of a block that the routing body uses, read at an index given by its
  coordinates: at the extended reals each is the plain finite sum over that axis's coordinate — over the 1152 input
  capsules, the 16 pose coordinates, or the 32 output capsules.
-/
import Idealize.ShloMosaic.PureOps.Ideal.Laws
import Idealize.ShloMosaic.Lib.ValueIdx
import Idealize.ShloMosaic.Lib.Pipeline.Value

noncomputable section

namespace Routing.Layout

open Idealize.ShloMosaic Idealize.ShloMosaic.ValueIdx

variable {α : Type}

/-! ## Sums over one axis of a block, at the extended reals -/

/-- The sum of a `[32, 16, 1152]` block over its last axis. -/
theorem sum_axis2_apply (v : FVec Ideal ⟨3, ![32, 16, 1152]⟩ .f32)
    (h : (⟨3, ![32, 16, 1152]⟩ : Shape).Reduces [2] ⟨2, ![32, 16]⟩) (c : Fin 32) (p : Fin 16) :
    multiReduction .add [2] ⟨2, ![32, 16]⟩ v 0x00000000#32 h (.inl rfl) rfl (ix2 c p) = ∑ k : Fin 1152, v (ix3 c p k) :=
  (Ideal.multiReduction_add_single v 0x00000000#32 h (.inl rfl) rfl (ix2 c p)).trans
    (Finset.sum_congr rfl fun k _ => congrArg v (funext fun ax => Fin.ext (by
      match ax with
      | ⟨0, _⟩ => rfl
      | ⟨1, _⟩ => rfl
      | ⟨2, _⟩ => rfl)))

/-- The sum of a `[32, 16, 1152]` block over its middle axis. -/
theorem sum_axis1_of3_apply (v : FVec Ideal ⟨3, ![32, 16, 1152]⟩ .f32)
    (h : (⟨3, ![32, 16, 1152]⟩ : Shape).Reduces [1] ⟨2, ![32, 1152]⟩) (c : Fin 32) (k : Fin 1152) :
    multiReduction .add [1] ⟨2, ![32, 1152]⟩ v 0x00000000#32 h (.inl rfl) rfl (ix2 c k) = ∑ p : Fin 16, v (ix3 c p k) :=
  (Ideal.multiReduction_add_single v 0x00000000#32 h (.inl rfl) rfl (ix2 c k)).trans
    (Finset.sum_congr rfl fun p _ => congrArg v (funext fun ax => Fin.ext (by
      match ax with
      | ⟨0, _⟩ => rfl
      | ⟨1, _⟩ => rfl
      | ⟨2, _⟩ => rfl)))

/-- The sum of a `[32, n]` block over its last axis. -/
theorem sum_axis1_of2_apply {n : ℕ} (v : FVec Ideal ⟨2, ![32, n]⟩ .f32)
    (h : (⟨2, ![32, n]⟩ : Shape).Reduces [1] ⟨1, ![32]⟩) (c : Fin 32) :
    multiReduction .add [1] ⟨1, ![32]⟩ v 0x00000000#32 h (.inl rfl) rfl (ix1 c) = ∑ k : Fin n, v (ix2 c k) :=
  (Ideal.multiReduction_add_single v 0x00000000#32 h (.inl rfl) rfl (ix1 c)).trans
    (Finset.sum_congr rfl fun k _ => congrArg v (funext fun ax => Fin.ext (by
      match ax with
      | ⟨0, _⟩ => rfl
      | ⟨1, _⟩ => rfl)))

/-- The sum of a `[32, 1152]` block over its first axis. -/
theorem sum_axis0_of2_apply (v : FVec Ideal ⟨2, ![32, 1152]⟩ .f32)
    (h : (⟨2, ![32, 1152]⟩ : Shape).Reduces [0] ⟨1, ![1152]⟩) (k : Fin 1152) :
    multiReduction .add [0] ⟨1, ![1152]⟩ v 0x00000000#32 h (.inl rfl) rfl (ix1 k) = ∑ c : Fin 32, v (ix2 c k) :=
  (Ideal.multiReduction_add_single v 0x00000000#32 h (.inl rfl) rfl (ix1 k)).trans
    (Finset.sum_congr rfl fun c _ => congrArg v (funext fun ax => Fin.ext (by
      match ax with
      | ⟨0, _⟩ => rfl
      | ⟨1, _⟩ => rfl)))

end Routing.Layout

end
-- ==== Proof.LibMiddleUnitAxis.lean ====
/-
  A unit axis in the middle of a shape, read at an index: the layout of `x[:, None, :]` spread along the new axis.

  An `[a, b]` array cast to `[a, 1, b]` reads, at `(i, u, j)`, the operand at `(i, j)`, and back: the two indices have the
  same row-major position, the unit coordinate being zero.  An `[a, 1, b]` array broadcast to `[a, n, b]` reads, at
  `(i, l, j)`, the operand at `(i, 0, j)`: the outer axes are kept and the unit axis is repeated.  An `[a, 1, 1]` column cast
  to `[a, 1]` reads the column's entry of the same row.
-/
import Idealize.ShloMosaic.Lib.ValueIdx
import Idealize.ShloMosaic.Lib.Pipeline.Value

noncomputable section

namespace Cert.MiddleUnitAxis

open Idealize.ShloMosaic Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, n, b]` reads, at `(i, l, j)`, the operand at `(i, 0, j)`. -/
theorem broadcastTo_a1b_anb_apply {a n b : ℕ} (v : (⟨3, ![a, 1, b]⟩ : Shape).Idx → α)
    (h : (⟨3, ![a, 1, b]⟩ : Shape).Broadcasts ⟨3, ![a, n, b]⟩) (i : Fin a) (l : Fin n) (j : Fin b) :
    broadcastTo ⟨3, ![a, n, b]⟩ v h (ix3 i l j) = v (ix3 i (0 : Fin 1) j) := by
  refine broadcastTo_apply v h (ix3 i l j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- An `[a, 1, 1]` array cast to `[a, 1]` reads, at `(i, u)`, the operand at `(i, 0, 0)`. -/
theorem shapeCast_a11_a1_apply {a : ℕ} (x : (⟨3, ![a, 1, 1]⟩ : Shape).Idx → α)
    (h : (⟨3, ![a, 1, 1]⟩ : Shape).ShapeCasts ⟨2, ![a, 1]⟩) (i : Fin a) (u : Fin 1) :
    shapeCast ⟨2, ![a, 1]⟩ x h (ix2 i u) = x (ix3 i (0 : Fin 1) (0 : Fin 1)) :=
  shapeCast_apply x h _ _ (by
    have hu : u.val = 0 := by omega
    rw [Shape.rowMajor_val_three, Shape.rowMajor_val_two]
    show (i.val * 1 + 0) * 1 + 0 = i.val * 1 + u.val
    omega)

end Cert.MiddleUnitAxis

end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.LibTrailingUnitAxis.lean ====
/-
  A trailing unit axis added by a shape cast and then spread by a broadcast, read at an index: the layout of
  `x[:, :, None]` broadcast along a new last axis.

  An `[a, b]` array cast to `[a, b, 1]` reads, at `(i, j, u)`, the operand at `(i, j)`: the two indices have the same
  row-major position, the unit coordinate being zero.  An `[a, b, 1]` array broadcast to `[a, b, n]` reads, at
  `(i, j, l)`, the operand at `(i, j, 0)`: the first two axes are kept and the unit axis is repeated.  Composed, the cast
  then the broadcast of `g` read `g (i, j)` at every `(i, j, l)`.
-/
import Idealize.ShloMosaic.Lib.Pipeline.Value
import Idealize.ShloMosaic.Lib.ValueIdx

noncomputable section

namespace Idealize.ShloMosaic.TrailingUnitAxis

open Idealize.ShloMosaic Idealize.ShloMosaic.ValueIdx

variable {α : Type}

/-- An `[a, b]` array cast to `[a, b, 1]` reads, at `(i, j, u)`, the operand at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, n]` reads, at `(i, j, l)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (l : Fin n) :
    broadcastTo ⟨3, ![a, b, n]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The cast then the broadcast: `g` repeated along the new last axis. -/
theorem broadcastTo_shapeCast_apply {a b n : ℕ} (g : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (i : Fin a) (j : Fin b) (l : Fin n) :
    broadcastTo ⟨3, ![a, b, n]⟩ (shapeCast ⟨3, ![a, b, 1]⟩ g hc) hb (ix3 i j l) = g (ix2 i j) := by
  rw [broadcastTo_ab1_abn_apply, shapeCast_ab_ab1_apply]

end Idealize.ShloMosaic.TrailingUnitAxis

end
-- ==== Proof.KernelStages.lean ====
/-
  The routing body's values, stage by stage, read at an index, at the extended reals.

  The body works on one batch element: its votes block `x0` is `[1, 32, 17, 1152]` (output capsule, pose
  coordinate or activation, input capsule), so `V c p k = x0[0, c, p, k]` for `p < 16` and the input
  activation is `A c k = x0[0, c, 16, k]`.  Each lemma says that one intermediate vector of the body, at the
  index `(c, p, k)`, `(c, k)`, `(c, p)` or `(c, 0)`, is the corresponding quantity of the routing pass
  (Proof/Routing.lean) — the body computes them in the same order with the same operations, the layout operations only
  moving per-capsule columns and tables onto the entries that use them; the negation is spelt `0 − x`.
  The later stages take the earlier ones as vectors, so they are stated for any weighted responsibilities `r`.
-/
import proofs.«120217_j75625784148290_2_alg».proof.Proof.Gen.KernelIdeal.Skeleton
import proofs.«120217_j75625784148290_2_alg».proof.Proof.Routing
import proofs.«120217_j75625784148290_2_alg».proof.Proof.KernelLayout
import proofs.«120217_j75625784148290_2_alg».proof.Proof.LibMiddleUnitAxis
import proofs.«120217_j75625784148290_2_alg».proof.Proof.LibColumnLayout
import proofs.«120217_j75625784148290_2_alg».proof.Proof.LibTrailingUnitAxis
import Idealize.ShloMosaic.Lib.ValueLayout
import Idealize.ShloMosaic.Lib.IdealHost

noncomputable section

namespace Cert.KernelIdeal.Stages

open Cert.KernelIdeal Cert.KernelIdeal.Gen Idealize.ShloMosaic Idealize.ShloMosaic.ValueIdx
open Routing Routing.Layout Cert.ColumnLayout Cert.MiddleUnitAxis Idealize.ShloMosaic.TrailingUnitAxis

/-! ## The pointwise operations at an index -/

theorem sqrt_apply {s : Shape} (v : FVec Ideal s .f32) (i : s.Idx) : sqrt v i = Ideal.sqrt (v i) := rfl
theorem log_apply {s : Shape} (v : FVec Ideal s .f32) (i : s.Idx) : log v i = Ideal.log (v i) := rfl
theorem exp_apply {s : Shape} (v : FVec Ideal s .f32) (i : s.Idx) : exp v i = Ideal.exp (v i) := rfl
theorem logistic_apply {s : Shape} (v : FVec Ideal s .f32) (i : s.Idx) : logistic v i = Ideal.logistic (v i) := rfl
theorem scalar_ofBits (w : BitVec 32) : Scalar.ofBits (F := Ideal) .f32 w = Ideal.ofBits .f32 w := rfl

/-- The body's negation: zero minus `x`. -/
theorem zero_word_sub (x : EReal) : Ideal.ofBits .f32 0x00000000#32 - x = -x := by
  rw [Ideal.ofBits_zero_f32, sub_eq_add_neg, zero_add]

/-! ## The votes block -/

/-- The poses of the block's votes. -/
def Vb (x0 : FVec Ideal S1x32x17x1152 .f32) : Fin 32 → Fin 16 → Fin 1152 → EReal :=
  fun c p k => x0 (ix4 (0 : Fin 1) c (Fin.castSucc p) k)

/-- The block's input activations. -/
def Ab (x0 : FVec Ideal S1x32x17x1152 .f32) : Fin 32 → Fin 1152 → EReal :=
  fun c k => x0 (ix4 (0 : Fin 1) c (Fin.last 16) k)

variable (x0 : FVec Ideal S1x32x17x1152 .f32)

theorem pay3_apply (c : Fin 32) (p : Fin 16) (k : Fin 1152) : k0_pay3 (F := Ideal) x0 (ix3 c p k) = Vb x0 c p k := by
  unfold k0_pay3 k0_pay2
  try dsimp only
  rw [slice3_axis1_apply 0 _ _ c p k (Fin.castSucc p) (by simp), shapeCast_1abc_abc_apply]
  rfl

theorem pay4_apply (c : Fin 32) (k : Fin 1152) : k0_pay4 (F := Ideal) x0 (ix2 c k) = Ab x0 c k := by
  unfold k0_pay4 k0_pay2
  try dsimp only
  rw [shapeCast_a1b_ab_apply, slice3_axis1_apply 16 _ _ c (0 : Fin 1) k (Fin.last 16) (by simp), shapeCast_1abc_abc_apply]
  rfl

theorem pay7_apply (c : Fin 32) (k : Fin 1152) : k0_pay7 (F := Ideal) x0 (ix2 c k) = r1 (Ab x0) c k := by
  unfold k0_pay7
  try dsimp only
  rw [mulf_apply, broadcast_apply, pay4_apply, scalar_ofBits]
  rfl

theorem pay8_apply (c : Fin 32) (u : Fin 1) : k0_pay8 (F := Ideal) x0 (ix2 c u) = mass (r1 (Ab x0)) c := by
  unfold k0_pay8
  try dsimp only
  rw [addf_apply, broadcast_apply, shapeCast_a_a1_apply, sum_axis1_of2_apply, scalar_ofBits]
  simp (config := { index := false }) only [pay7_apply]
  rfl

theorem pay9_apply (c : Fin 32) (p : Fin 16) (k : Fin 1152) :
    k0_pay9 (F := Ideal) x0 (ix3 c p k) = dev2 (Vb x0) (r1 (Ab x0)) c p k := by
  unfold k0_pay9
  try dsimp only
  simp (config := { index := false }) only [mulf_apply, addf_apply, subf_apply, divf_apply, broadcast_apply, sqrt_apply, log_apply, exp_apply, logistic_apply, scalar_ofBits, zero_word_sub, shapeCast_a_a1_apply, broadcastTo_a1_ab_apply, shapeCast_ab_ab1_apply, broadcastTo_ab1_abn_apply, shapeCast_ab_a1b_apply, broadcastTo_a1b_anb_apply, shapeCast_a_1a_apply, broadcastTo_1b_ab_apply, sum_axis2_apply, sum_axis1_of3_apply, sum_axis1_of2_apply, sum_axis0_of2_apply, pay3_apply, pay7_apply, pay8_apply]
  rfl

theorem pay10_apply (c : Fin 32) (p : Fin 16) : k0_pay10 (F := Ideal) x0 (ix2 c p) = var (Vb x0) (r1 (Ab x0)) c p := by
  unfold k0_pay10
  try dsimp only
  simp (config := { index := false }) only [mulf_apply, addf_apply, subf_apply, divf_apply, broadcast_apply, sqrt_apply, log_apply, exp_apply, logistic_apply, scalar_ofBits, zero_word_sub, shapeCast_a_a1_apply, broadcastTo_a1_ab_apply, shapeCast_ab_ab1_apply, broadcastTo_ab1_abn_apply, shapeCast_ab_a1b_apply, broadcastTo_a1b_anb_apply, shapeCast_a_1a_apply, broadcastTo_1b_ab_apply, sum_axis2_apply, sum_axis1_of3_apply, sum_axis1_of2_apply, sum_axis0_of2_apply, pay7_apply, pay8_apply, pay9_apply]
  rfl

theorem pay11_apply (c : Fin 32) (p : Fin 16) : k0_pay11 (F := Ideal) x0 (ix2 c p) = logsd (Vb x0) (r1 (Ab x0)) c p := by
  unfold k0_pay11
  try dsimp only
  simp (config := { index := false }) only [mulf_apply, addf_apply, subf_apply, divf_apply, broadcast_apply, sqrt_apply, log_apply, exp_apply, logistic_apply, scalar_ofBits, zero_word_sub, shapeCast_a_a1_apply, broadcastTo_a1_ab_apply, shapeCast_ab_ab1_apply, broadcastTo_ab1_abn_apply, shapeCast_ab_a1b_apply, broadcastTo_a1b_anb_apply, shapeCast_a_1a_apply, broadcastTo_1b_ab_apply, sum_axis2_apply, sum_axis1_of3_apply, sum_axis1_of2_apply, sum_axis0_of2_apply, pay10_apply]
  rfl

/-! ## The two bias columns -/

theorem pay5_apply (x1 : FVec Ideal S1x32x1x1 .f32) (c : Fin 32) (u : Fin 1) :
    k0_pay5 (F := Ideal) x1 (ix2 c u) = x1 (ix4 (0 : Fin 1) c (0 : Fin 1) (0 : Fin 1)) := by
  unfold k0_pay5
  try dsimp only
  rw [shapeCast_a11_a1_apply, shapeCast_1abc_abc_apply]

theorem pay6_apply (x2 : FVec Ideal S1x32x1 .f32) (c : Fin 32) (u : Fin 1) :
    k0_pay6 (F := Ideal) x2 (ix2 c u) = x2 (ix3 (0 : Fin 1) c u) := by
  unfold k0_pay6
  try dsimp only
  rw [shapeCast_1ab_ab_apply]

/-! ## From one pass to the next, for any weighted responsibilities -/

section Generic

variable (V : Fin 32 → Fin 16 → Fin 1152 → EReal) (A : Fin 32 → Fin 1152 → EReal) (bv ba : Fin 32 → EReal)
  (r : Fin 32 → Fin 1152 → EReal)
  (v2 : FVec Ideal S32x16x1152 .f32) (v4 : FVec Ideal S32x1152 .f32) (v7 v9 v19 : FVec Ideal S32x1 .f32)
  (v27 : FVec Ideal S32x16x1152 .f32) (v35 v39 : FVec Ideal S32x16 .f32)

/-- The expectation step after the first pass, and the input activation: the second pass's weighted responsibilities. -/
theorem pay12_apply (h4 : ∀ c k, v4 (ix2 c k) = A c k) (h7 : ∀ c (u : Fin 1), v7 (ix2 c u) = bv c)
    (h9 : ∀ c (u : Fin 1), v9 (ix2 c u) = ba c) (h19 : ∀ c (u : Fin 1), v19 (ix2 c u) = mass r c)
    (h27 : ∀ c p k, v27 (ix3 c p k) = dev2 V r c p k) (h35 : ∀ c p, v35 (ix2 c p) = var V r c p)
    (h39 : ∀ c p, v39 (ix2 c p) = logsd V r c p) (c : Fin 32) (k : Fin 1152) :
    k0_pay12 (F := Ideal) v4 v7 v9 v19 v27 v35 v39 (ix2 c k) = next V A bv ba lam1 r c k := by
  unfold k0_pay12
  try dsimp only
  simp (config := { index := false }) only [mulf_apply, addf_apply, subf_apply, divf_apply, broadcast_apply, sqrt_apply, log_apply, exp_apply, logistic_apply, scalar_ofBits, zero_word_sub, shapeCast_a_a1_apply, broadcastTo_a1_ab_apply, shapeCast_ab_ab1_apply, broadcastTo_ab1_abn_apply, shapeCast_ab_a1b_apply, broadcastTo_a1b_anb_apply, shapeCast_a_1a_apply, broadcastTo_1b_ab_apply, sum_axis2_apply, sum_axis1_of3_apply, sum_axis1_of2_apply, sum_axis0_of2_apply, h4, h7, h9, h19, h27, h35, h39]
  rfl

theorem pay13_apply (h4 : ∀ c k, v4 (ix2 c k) = A c k) (h7 : ∀ c (u : Fin 1), v7 (ix2 c u) = bv c)
    (h9 : ∀ c (u : Fin 1), v9 (ix2 c u) = ba c) (h19 : ∀ c (u : Fin 1), v19 (ix2 c u) = mass r c)
    (h27 : ∀ c p k, v27 (ix3 c p k) = dev2 V r c p k) (h35 : ∀ c p, v35 (ix2 c p) = var V r c p)
    (h39 : ∀ c p, v39 (ix2 c p) = logsd V r c p) (c : Fin 32) (u : Fin 1) :
    k0_pay13 (F := Ideal) v4 v7 v9 v19 v27 v35 v39 (ix2 c u) = mass (next V A bv ba lam1 r) c := by
  unfold k0_pay13
  try dsimp only
  simp (config := { index := false }) only [mulf_apply, addf_apply, subf_apply, divf_apply, broadcast_apply, sqrt_apply, log_apply, exp_apply, logistic_apply, scalar_ofBits, zero_word_sub, shapeCast_a_a1_apply, broadcastTo_a1_ab_apply, shapeCast_ab_ab1_apply, broadcastTo_ab1_abn_apply, shapeCast_ab_a1b_apply, broadcastTo_a1b_anb_apply, shapeCast_a_1a_apply, broadcastTo_1b_ab_apply, sum_axis2_apply, sum_axis1_of3_apply, sum_axis1_of2_apply, sum_axis0_of2_apply, pay12_apply V A bv ba r v4 v7 v9 v19 v27 v35 v39 h4 h7 h9 h19 h27 h35 h39]
  rfl

theorem pay14_apply (h2 : ∀ c p k, v2 (ix3 c p k) = V c p k) (h4 : ∀ c k, v4 (ix2 c k) = A c k)
    (h7 : ∀ c (u : Fin 1), v7 (ix2 c u) = bv c)
    (h9 : ∀ c (u : Fin 1), v9 (ix2 c u) = ba c) (h19 : ∀ c (u : Fin 1), v19 (ix2 c u) = mass r c)
    (h27 : ∀ c p k, v27 (ix3 c p k) = dev2 V r c p k) (h35 : ∀ c p, v35 (ix2 c p) = var V r c p)
    (h39 : ∀ c p, v39 (ix2 c p) = logsd V r c p) (c : Fin 32) (p : Fin 16) (k : Fin 1152) :
    k0_pay14 (F := Ideal) v2 v4 v7 v9 v19 v27 v35 v39 (ix3 c p k)
      = V c p k - mean V (next V A bv ba lam1 r) c p := by
  unfold k0_pay14
  try dsimp only
  simp (config := { index := false }) only [mulf_apply, addf_apply, subf_apply, divf_apply, broadcast_apply, sqrt_apply, log_apply, exp_apply, logistic_apply, scalar_ofBits, zero_word_sub, shapeCast_a_a1_apply, broadcastTo_a1_ab_apply, shapeCast_ab_ab1_apply, broadcastTo_ab1_abn_apply, shapeCast_ab_a1b_apply, broadcastTo_a1b_anb_apply, shapeCast_a_1a_apply, broadcastTo_1b_ab_apply, sum_axis2_apply, sum_axis1_of3_apply, sum_axis1_of2_apply, sum_axis0_of2_apply, h2, pay12_apply V A bv ba r v4 v7 v9 v19 v27 v35 v39 h4 h7 h9 h19 h27 h35 h39,
    pay13_apply V A bv ba r v4 v7 v9 v19 v27 v35 v39 h4 h7 h9 h19 h27 h35 h39]
  rfl

variable (v74 : FVec Ideal S32x1152 .f32) (v82 : FVec Ideal S32x1 .f32) (v87 : FVec Ideal S32x16x1152 .f32)

/-- The second pass from its weighted responsibilities, their masses and the deviations from its mean, up to the
    normalised likelihoods. -/
theorem pay15_apply (h7 : ∀ c (u : Fin 1), v7 (ix2 c u) = bv c) (h9 : ∀ c (u : Fin 1), v9 (ix2 c u) = ba c)
    (h74 : ∀ c k, v74 (ix2 c k) = r c k) (h82 : ∀ c (u : Fin 1), v82 (ix2 c u) = mass r c)
    (h87 : ∀ c p k, v87 (ix3 c p k) = V c p k - mean V r c p) (c : Fin 32) (k : Fin 1152) :
    k0_pay15 (F := Ideal) v7 v9 v74 v82 v87 (ix2 c k)
      = Ideal.div (lik V bv ba lam2 r c k) ((∑ c', lik V bv ba lam2 r c' k) + eps10) := by
  unfold k0_pay15
  try dsimp only
  simp (config := { index := false }) only [mulf_apply, addf_apply, subf_apply, divf_apply, broadcast_apply, sqrt_apply, log_apply, exp_apply, logistic_apply, scalar_ofBits, zero_word_sub, shapeCast_a_a1_apply, broadcastTo_a1_ab_apply, shapeCast_ab_ab1_apply, broadcastTo_ab1_abn_apply, shapeCast_ab_a1b_apply, broadcastTo_a1b_anb_apply, shapeCast_a_1a_apply, broadcastTo_1b_ab_apply, sum_axis2_apply, sum_axis1_of3_apply, sum_axis1_of2_apply, sum_axis0_of2_apply, h7, h9, h74, h82, h87]
  rfl

variable (v134 : FVec Ideal S32x1152 .f32) (cst : Ideal .f32) (lam : EReal)

/-- The third pass's weighted responsibilities. -/
theorem pay16_apply (h4 : ∀ c k, v4 (ix2 c k) = A c k)
    (h134 : ∀ c k, v134 (ix2 c k) = Ideal.div (lik V bv ba lam r c k) ((∑ c', lik V bv ba lam r c' k) + eps10))
    (hc : cst = eps10) (c : Fin 32) (k : Fin 1152) :
    k0_pay16 (F := Ideal) v4 v134 cst (ix2 c k) = next V A bv ba lam r c k := by
  unfold k0_pay16
  try dsimp only
  simp (config := { index := false }) only [mulf_apply, addf_apply, subf_apply, divf_apply, broadcast_apply, sqrt_apply, log_apply, exp_apply, logistic_apply, scalar_ofBits, zero_word_sub, shapeCast_a_a1_apply, broadcastTo_a1_ab_apply, shapeCast_ab_ab1_apply, broadcastTo_ab1_abn_apply, shapeCast_ab_a1b_apply, broadcastTo_a1b_anb_apply, shapeCast_a_1a_apply, broadcastTo_1b_ab_apply, sum_axis2_apply, sum_axis1_of3_apply, sum_axis1_of2_apply, sum_axis0_of2_apply, h4, h134, hc]
  rfl

theorem pay17_apply (h4 : ∀ c k, v4 (ix2 c k) = A c k)
    (h134 : ∀ c k, v134 (ix2 c k) = Ideal.div (lik V bv ba lam r c k) ((∑ c', lik V bv ba lam r c' k) + eps10))
    (hc : cst = eps10) (c : Fin 32) (u : Fin 1) :
    k0_pay17 (F := Ideal) v4 v134 cst (ix2 c u) = mass (next V A bv ba lam r) c := by
  unfold k0_pay17
  try dsimp only
  simp (config := { index := false }) only [mulf_apply, addf_apply, subf_apply, divf_apply, broadcast_apply, sqrt_apply, log_apply, exp_apply, logistic_apply, scalar_ofBits, zero_word_sub, shapeCast_a_a1_apply, broadcastTo_a1_ab_apply, shapeCast_ab_ab1_apply, broadcastTo_ab1_abn_apply, shapeCast_ab_a1b_apply, broadcastTo_a1b_anb_apply, shapeCast_a_1a_apply, broadcastTo_1b_ab_apply, sum_axis2_apply, sum_axis1_of3_apply, sum_axis1_of2_apply, sum_axis0_of2_apply, pay16_apply V A bv ba r v4 v134 cst lam h4 h134 hc]
  rfl

/-- The third pass's mean pose. -/
theorem pay18_apply (h2 : ∀ c p k, v2 (ix3 c p k) = V c p k) (h4 : ∀ c k, v4 (ix2 c k) = A c k)
    (h134 : ∀ c k, v134 (ix2 c k) = Ideal.div (lik V bv ba lam r c k) ((∑ c', lik V bv ba lam r c' k) + eps10))
    (hc : cst = eps10) (c : Fin 32) (p : Fin 16) :
    k0_pay18 (F := Ideal) v2 v4 v134 cst (ix2 c p) = mean V (next V A bv ba lam r) c p := by
  unfold k0_pay18
  try dsimp only
  simp (config := { index := false }) only [mulf_apply, addf_apply, subf_apply, divf_apply, broadcast_apply, sqrt_apply, log_apply, exp_apply, logistic_apply, scalar_ofBits, zero_word_sub, shapeCast_a_a1_apply, broadcastTo_a1_ab_apply, shapeCast_ab_ab1_apply, broadcastTo_ab1_abn_apply, shapeCast_ab_a1b_apply, broadcastTo_a1b_anb_apply, shapeCast_a_1a_apply, broadcastTo_1b_ab_apply, sum_axis2_apply, sum_axis1_of3_apply, sum_axis1_of2_apply, sum_axis0_of2_apply, h2, pay16_apply V A bv ba r v4 v134 cst lam h4 h134 hc,
    pay17_apply V A bv ba r v4 v134 cst lam h4 h134 hc]
  rfl

/-- The third pass's output activation. -/
theorem pay19_apply (h2 : ∀ c p k, v2 (ix3 c p k) = V c p k) (h4 : ∀ c k, v4 (ix2 c k) = A c k)
    (h7 : ∀ c (u : Fin 1), v7 (ix2 c u) = bv c) (h9 : ∀ c (u : Fin 1), v9 (ix2 c u) = ba c)
    (h134 : ∀ c k, v134 (ix2 c k) = Ideal.div (lik V bv ba lam r c k) ((∑ c', lik V bv ba lam r c' k) + eps10))
    (hc : cst = eps10) (c : Fin 32) (u : Fin 1) :
    k0_pay19 (F := Ideal) v2 v4 v7 v9 v134 cst (ix2 c u) = act V bv ba lam3 (next V A bv ba lam r) c := by
  unfold k0_pay19
  try dsimp only
  simp (config := { index := false }) only [mulf_apply, addf_apply, subf_apply, divf_apply, broadcast_apply, sqrt_apply, log_apply, exp_apply, logistic_apply, scalar_ofBits, zero_word_sub, shapeCast_a_a1_apply, broadcastTo_a1_ab_apply, shapeCast_ab_ab1_apply, broadcastTo_ab1_abn_apply, shapeCast_ab_a1b_apply, broadcastTo_a1b_anb_apply, shapeCast_a_1a_apply, broadcastTo_1b_ab_apply, sum_axis2_apply, sum_axis1_of3_apply, sum_axis1_of2_apply, sum_axis0_of2_apply, h2, h7, h9, pay16_apply V A bv ba r v4 v134 cst lam h4 h134 hc,
    pay17_apply V A bv ba r v4 v134 cst lam h4 h134 hc, pay18_apply V A bv ba r v2 v4 v134 cst lam h2 h4 h134 hc]
  rfl

theorem pay20_apply (h2 : ∀ c p k, v2 (ix3 c p k) = V c p k) (h4 : ∀ c k, v4 (ix2 c k) = A c k)
    (h134 : ∀ c k, v134 (ix2 c k) = Ideal.div (lik V bv ba lam r c k) ((∑ c', lik V bv ba lam r c' k) + eps10))
    (hc : cst = eps10) (z : Fin 1) (c : Fin 32) (p : Fin 16) :
    k0_pay20 (F := Ideal) v2 v4 v134 cst (ix3 z c p) = mean V (next V A bv ba lam r) c p := by
  unfold k0_pay20
  try dsimp only
  rw [shapeCast_ab_1ab_apply, pay18_apply V A bv ba r v2 v4 v134 cst lam h2 h4 h134 hc]

theorem pay1_apply (v175 : FVec Ideal S32x1 .f32) (z : Fin 1) (c : Fin 32) (u : Fin 1) :
    k0_pay1 (F := Ideal) v175 (ix3 z c u) = v175 (ix2 c u) := by
  unfold k0_pay1
  try dsimp only
  rw [shapeCast_ab_1ab_apply]

end Generic

end Cert.KernelIdeal.Stages

end
-- ==== Proof.KernelBlock.lean ====
/-
  What the routing body leaves in its output block, index by index.

  The body's two stores fill the `[1, 32, 17]` block: columns 0…15 with the third pass's mean pose and column 16 with
  its output activation.  Chaining the stage lemmas (Proof/KernelStages.lean) from the loaded blocks — the votes block
  `x0`, `beta_v`'s block `x1`, `beta_a`'s block `x2` — through the three passes identifies each stored vector with the
  routing pass's quantity; an index of the block lies under exactly one of the two stored rectangles, by its last
  coordinate, and reads that store's vector there.
-/
import proofs.«120217_j75625784148290_2_alg».proof.Proof.Gen.KernelIdeal.Frame
import proofs.«120217_j75625784148290_2_alg».proof.Proof.KernelStages
import Idealize.ShloMosaic.Lib.Pipeline.Value
import Idealize.ShloMosaic.Lib.Tactic

noncomputable section

namespace Cert.KernelIdeal.Block

open Cert.KernelIdeal Cert.KernelIdeal.Gen Cert.KernelIdeal.Stages
open Idealize.ShloMosaic Idealize.ShloMosaic.ValueIdx Idealize.ShloMosaic.TcCoe Idealize.SL.Sem Routing

variable (x0 : FVec Ideal S1x32x17x1152 .f32) (x1 : FVec Ideal S1x32x1x1 .f32) (x2 : FVec Ideal S1x32x1 .f32)

/-- `beta_v` and `beta_a` of the loaded blocks. -/
def bvb : Fin 32 → EReal := fun c => x1 (ix4 (0 : Fin 1) c (0 : Fin 1) (0 : Fin 1))
def bab : Fin 32 → EReal := fun c => x2 (ix3 (0 : Fin 1) c (0 : Fin 1))

theorem biasV_apply (c : Fin 32) (u : Fin 1) : k0_pay5 (F := Ideal) x1 (ix2 c u) = bvb x1 c := pay5_apply x1 c u

theorem biasA_apply (c : Fin 32) (u : Fin 1) : k0_pay6 (F := Ideal) x2 (ix2 c u) = bab x2 c := by
  rw [pay6_apply, Subsingleton.elim u (0 : Fin 1)]; rfl

/-- The second pass's weighted responsibilities, masses and deviations, and its normalised likelihoods, as the body
    computes them from the loaded blocks. -/
abbrev w74 : FVec Ideal S32x1152 .f32 :=
  k0_pay12 (F := Ideal) (k0_pay4 x0) (k0_pay5 x1) (k0_pay6 x2) (k0_pay8 x0) (k0_pay9 x0) (k0_pay10 x0) (k0_pay11 x0)
abbrev w82 : FVec Ideal S32x1 .f32 :=
  k0_pay13 (F := Ideal) (k0_pay4 x0) (k0_pay5 x1) (k0_pay6 x2) (k0_pay8 x0) (k0_pay9 x0) (k0_pay10 x0) (k0_pay11 x0)
abbrev w87 : FVec Ideal S32x16x1152 .f32 :=
  k0_pay14 (F := Ideal) (k0_pay3 x0) (k0_pay4 x0) (k0_pay5 x1) (k0_pay6 x2) (k0_pay8 x0) (k0_pay9 x0) (k0_pay10 x0) (k0_pay11 x0)
abbrev w134 : FVec Ideal S32x1152 .f32 :=
  k0_pay15 (F := Ideal) (k0_pay5 x1) (k0_pay6 x2) (w74 x0 x1 x2) (w82 x0 x1 x2) (w87 x0 x1 x2)

theorem w74_apply (c : Fin 32) (k : Fin 1152) : w74 x0 x1 x2 (ix2 c k) = r2 (Vb x0) (Ab x0) (bvb x1) (bab x2) c k :=
  pay12_apply (V := Vb x0) (A := Ab x0) (bv := bvb x1) (ba := bab x2) (r := r1 (Ab x0))
    (h4 := pay4_apply x0) (h7 := biasV_apply x1) (h9 := biasA_apply x2) (h19 := pay8_apply x0) (h27 := pay9_apply x0)
    (h35 := pay10_apply x0) (h39 := pay11_apply x0) (c := c) (k := k)

theorem w82_apply (c : Fin 32) (u : Fin 1) : w82 x0 x1 x2 (ix2 c u) = mass (r2 (Vb x0) (Ab x0) (bvb x1) (bab x2)) c :=
  pay13_apply (V := Vb x0) (A := Ab x0) (bv := bvb x1) (ba := bab x2) (r := r1 (Ab x0))
    (h4 := pay4_apply x0) (h7 := biasV_apply x1) (h9 := biasA_apply x2) (h19 := pay8_apply x0) (h27 := pay9_apply x0)
    (h35 := pay10_apply x0) (h39 := pay11_apply x0) (c := c) (u := u)

theorem w87_apply (c : Fin 32) (p : Fin 16) (k : Fin 1152) :
    w87 x0 x1 x2 (ix3 c p k) = Vb x0 c p k - mean (Vb x0) (r2 (Vb x0) (Ab x0) (bvb x1) (bab x2)) c p :=
  pay14_apply (V := Vb x0) (A := Ab x0) (bv := bvb x1) (ba := bab x2) (r := r1 (Ab x0))
    (h2 := pay3_apply x0) (h4 := pay4_apply x0) (h7 := biasV_apply x1) (h9 := biasA_apply x2) (h19 := pay8_apply x0)
    (h27 := pay9_apply x0) (h35 := pay10_apply x0) (h39 := pay11_apply x0) (c := c) (p := p) (k := k)

theorem w134_apply (c : Fin 32) (k : Fin 1152) :
    w134 x0 x1 x2 (ix2 c k)
      = Ideal.div (lik (Vb x0) (bvb x1) (bab x2) lam2 (r2 (Vb x0) (Ab x0) (bvb x1) (bab x2)) c k)
          ((∑ c', lik (Vb x0) (bvb x1) (bab x2) lam2 (r2 (Vb x0) (Ab x0) (bvb x1) (bab x2)) c' k) + eps10) :=
  pay15_apply (V := Vb x0) (bv := bvb x1) (ba := bab x2) (r := r2 (Vb x0) (Ab x0) (bvb x1) (bab x2))
    (h7 := biasV_apply x1) (h9 := biasA_apply x2) (h74 := w74_apply x0 x1 x2) (h82 := w82_apply x0 x1 x2)
    (h87 := w87_apply x0 x1 x2) (c := c) (k := k)

/-- The stored mean pose (columns 0…15). -/
theorem mean3_apply (z : Fin 1) (c : Fin 32) (p : Fin 16) :
    k0_pay20 (F := Ideal) (k0_pay3 x0) (k0_pay4 x0) (w134 x0 x1 x2) (FloatOps.ofBits .f32 0x2EDBE6FF#32) (ix3 z c p)
      = mean (Vb x0) (r3 (Vb x0) (Ab x0) (bvb x1) (bab x2)) c p :=
  pay20_apply (V := Vb x0) (A := Ab x0) (bv := bvb x1) (ba := bab x2) (r := r2 (Vb x0) (Ab x0) (bvb x1) (bab x2)) (lam := lam2)
    (h2 := pay3_apply x0) (h4 := pay4_apply x0) (h134 := w134_apply x0 x1 x2) (hc := rfl) (z := z) (c := c) (p := p)

/-- The stored output activation (column 16). -/
theorem act3_apply (z : Fin 1) (c : Fin 32) (u : Fin 1) :
    k0_pay1 (F := Ideal) (k0_pay19 (k0_pay3 x0) (k0_pay4 x0) (k0_pay5 x1) (k0_pay6 x2) (w134 x0 x1 x2)
        (FloatOps.ofBits .f32 0x2EDBE6FF#32)) (ix3 z c u)
      = act (Vb x0) (bvb x1) (bab x2) lam3 (r3 (Vb x0) (Ab x0) (bvb x1) (bab x2)) c :=
  (pay1_apply _ z c u).trans
    (pay19_apply (V := Vb x0) (A := Ab x0) (bv := bvb x1) (ba := bab x2) (r := r2 (Vb x0) (Ab x0) (bvb x1) (bab x2)) (lam := lam2)
      (h2 := pay3_apply x0) (h4 := pay4_apply x0) (h7 := biasV_apply x1) (h9 := biasA_apply x2)
      (h134 := w134_apply x0 x1 x2) (hc := rfl) (c := c) (u := u))

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- THE BLOCK the body leaves, on any staging memrefs, at `(0, c, h)`: the routed capsule `c` of the loaded blocks. -/
theorem out_apply (d : Dev nD) (i : grid0.Coords) (a1 : Memref sig .tc .vmem S1x32x17x1152 .f32) (h1 : a1.IsWhole)
    (a2 : Memref sig .tc .vmem S1x32x1x1 .f32) (h2 : a2.IsWhole) (a3 : Memref sig .tc .vmem S1x32x1 .f32) (h3 : a3.IsWhole)
    (a4 : Memref sig .tc .vmem S1x32x17 .f32) (h4 : a4.IsWhole) (z : Fin 1) (c : Fin 32) (h : Fin 17) :
    out0_A_3 (F := Ideal) d i a1 h1 a2 h2 a3 h3 a4 h4 x0 x1 x2 (ix3 z c h) = out (Vb x0) (Ab x0) (bvb x1) (bab x2) c h := by
  unfold out0_A_3
  rw [View.read_writes_eq_canon _ _ _ (cover0_A_3 (F := Ideal) d i a1 h1 a2 h2 a3 h3 a4 h4 x0 x1 x2)]
  unfold kernelRun0_A
  dsimp only
  sl_unfold_words
  simp only [View.readAt_eq_ld, h1.read_unread, h2.read_unread, h3.read_unread,
    View.ld_unit_zero (S := S1x32x17x1152) hz4, View.ld_unit_zero (S := S1x32x1x1) hz4,
    View.ld_unit_zero (S := S1x32x1) hz3]
  have hz0 : z.val = 0 := by omega
  by_cases hh : h.val < 16
  · rw [View.canon_cons_of_not_mem _ _ (by
      rw [Rect.mem_set_unit]
      intro H
      have := (H (2 : Fin 3)).1
      have e : ((ix3 z c h : S1x32x17.Idx) (2 : Fin 3)).val = h.val := rfl
      have e' : (![0, 0, 16] : Fin 3 → Nat) (2 : Fin 3) = 16 := rfl
      omega)]
    have e : (ix3 z c h : S1x32x17.Idx)
        = (Rect.unit (s := S1x32x17) ![0, 0, 0] S1x32x16.size inb_S1x32x17_S1x32x16_0_0_0).emb (ix3 z c (⟨h.val, hh⟩ : Fin 16)) :=
      funext fun a => Fin.ext (by
        match a with
        | ⟨0, _⟩ => show z.val = 0 + 1 * z.val; omega
        | ⟨1, _⟩ => show c.val = 0 + 1 * c.val; omega
        | ⟨2, _⟩ => show h.val = 0 + 1 * h.val; omega)
    rw [e, View.canon_cons_emb, mean3_apply]
    unfold out
    rw [dif_pos hh]
  · have h16 : h.val = 16 := by have := h.isLt; omega
    have e : (ix3 z c h : S1x32x17.Idx)
        = (Rect.unit (s := S1x32x17) ![0, 0, 16] S1x32x1.size inb_S1x32x17_S1x32x1_0_0_16).emb (ix3 z c (0 : Fin 1)) :=
      funext fun a => Fin.ext (by
        match a with
        | ⟨0, _⟩ => show z.val = 0 + 1 * z.val; omega
        | ⟨1, _⟩ => show c.val = 0 + 1 * c.val; omega
        | ⟨2, _⟩ => show h.val = 16 + 1 * 0; omega)
    rw [e, View.canon_cons_emb, act3_apply]
    unfold out
    rw [dif_neg hh]

/-- The same at any index of the block. -/
theorem out_apply_idx (d : Dev nD) (i : grid0.Coords) (a1 : Memref sig .tc .vmem S1x32x17x1152 .f32) (h1 : a1.IsWhole)
    (a2 : Memref sig .tc .vmem S1x32x1x1 .f32) (h2 : a2.IsWhole) (a3 : Memref sig .tc .vmem S1x32x1 .f32) (h3 : a3.IsWhole)
    (a4 : Memref sig .tc .vmem S1x32x17 .f32) (h4 : a4.IsWhole) (y : S1x32x17.Idx) :
    out0_A_3 (F := Ideal) d i a1 h1 a2 h2 a3 h3 a4 h4 x0 x1 x2 y = out (Vb x0) (Ab x0) (bvb x1) (bab x2) (y 1) (y 2) :=
  (congrArg (out0_A_3 (F := Ideal) d i a1 h1 a2 h2 a3 h3 a4 h4 x0 x1 x2) (eq_ix3 y)).trans
    (out_apply x0 x1 x2 d i a1 h1 a2 h2 a3 h3 a4 h4 (y 0) (y 1) (y 2))

end Cert.KernelIdeal.Block

end
-- ==== Proof.KernelValue.lean ====
/-
  The kernel's result array after the run is the routed capsules of every batch element.

  The grid has one point per batch element: point `t` fetches block `t` of the transposed votes — the host transposes
  the votes to `[64, 32, 17, 1152]` before the region, so the block's entry `(0, c, h, k)` is `votes[t, k, c, h]` —
  and the whole of `beta_v` and `beta_a`, and writes back block `t` of the result, whose entry `(0, c, h)` is the
  routed capsule `c` of those blocks (Proof/KernelBlock.lean).  The 64 blocks tile the result array, so it ends holding
  the routed capsules of each batch element's votes.
-/
import proofs.«120217_j75625784148290_2_alg».proof.Proof.Gen.KernelIdeal.Value
import proofs.«120217_j75625784148290_2_alg».proof.Proof.KernelBlock
import Idealize.ShloMosaic.Lib.Pipeline.Value
import Idealize.ShloMosaic.Lib.StableHlo.Run

noncomputable section

namespace Cert.KernelIdeal.Whole

open Cert.KernelIdeal Cert.KernelIdeal.Gen Cert.KernelIdeal.Stages Cert.KernelIdeal.Block
open Idealize.ShloMosaic Idealize.ShloMosaic.TcCoe Idealize.SL.Sem Idealize.ShloMosaic.ValueIdx Routing
open Idealize.ShloMosaic.Pipeline (Dat)

variable (m : (ℓ : Loc nD τ sig) → Buf (Elt Ideal) ℓ) (ρ : Dev nD → PrngReg)

/-- The result array as one function of the three argument arrays' launch contents. -/
abbrev G (c : Dev nD) : Buf (Elt Ideal) ((c : Thread nD τ).loc main_v0) :=
  resultArr (m ((c : Thread nD τ).loc main_arg0)) (m ((c : Thread nD τ).loc main_arg1)) (m ((c : Thread nD τ).loc main_arg2))

/-- A grid point as a batch element. -/
def bt (t : Fin cfg0.N) : Fin 64 := ⟨t.val, by have := t.isLt; have hN : cfg0.N = 64 := N_0; omega⟩

/-- The printed index maps, decided over the grid: the votes' and the result's block index is the grid point on the
    batch axis and zero elsewhere; the two biases' blocks never move. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The blocks the body loads -/

/-- The region finds the transposed votes: the host's one operation before it. -/
theorem V_votesT (c : Dev nD) :
    (V m c main_call0_v0 : S64x32x17x1152.Idx → EReal)
      = transpose S64x32x17x1152 [0, 2, 3, 1] (m ((c : Thread nD τ).loc main_arg0)) transposes_S64x1152x32x17_S64x32x17x1152_0_2_3_1 := by
  dsimp only [Gen.V, Gen.hostOps0]; after_results; rfl

theorem votesT_apply (c : Dev nD) (b : Fin 64) (cc : Fin 32) (h : Fin 17) (k : Fin 1152) :
    V m c main_call0_v0 (ix4 b cc h k) = m ((c : Thread nD τ).loc main_arg0) (ix4 b k cc h) := by
  show (V m c main_call0_v0 : S64x32x17x1152.Idx → EReal) (ix4 b cc h k) = _
  rw [V_votesT]
  exact transpose_apply _ _ _ (ix4 b cc h k) (ix4 b k cc h) (fun a => by
    match a with
    | ⟨0, _⟩ => rfl
    | ⟨1, _⟩ => rfl
    | ⟨2, _⟩ => rfl
    | ⟨3, _⟩ => rfl)

/-- The votes block at point `t`, at `(0, c, h, k)`, is `votes[t, k, c, h]`. -/
theorem iblk0_apply (c : Dev nD) (t : Fin cfg0.N) (z : Fin 1) (cc : Fin 32) (h : Fin 17) (k : Fin 1152) :
    iblk m c 0 t (ix4 z cc h k) = m ((c : Thread nD τ).loc main_arg0) (ix4 (bt t) k cc h) := by
  obtain ⟨e0, e1, e2, e3, -⟩ := idx_facts t
  have hz : z.val = 0 := by omega
  show V m c main_call0_v0 (((cfg0.win 0).blk t).view.emb (ix4 z cc h k)) = _
  have e : ((cfg0.win 0).blk t).view.emb (ix4 z cc h k) = ix4 (bt t) cc h k := by
    funext a; apply Fin.ext
    match a with
    | ⟨0, _⟩ => show win0_0.index t (0 : Fin 4) * 1 + 1 * z.val = t.val; omega
    | ⟨1, _⟩ => show win0_0.index t (1 : Fin 4) * 32 + 1 * cc.val = cc.val; omega
    | ⟨2, _⟩ => show win0_0.index t (2 : Fin 4) * 17 + 1 * h.val = h.val; omega
    | ⟨3, _⟩ => show win0_0.index t (3 : Fin 4) * 1152 + 1 * k.val = k.val; omega
  rw [e]
  exact votesT_apply m c (bt t) cc h k

/-- `beta_v`'s block is the whole of `beta_v` at every point. -/
theorem iblk1_apply (c : Dev nD) (t : Fin cfg0.N) (cc : Fin 32) :
    iblk m c 1 t (ix4 (0 : Fin 1) cc (0 : Fin 1) (0 : Fin 1))
      = m ((c : Thread nD τ).loc main_arg1) (ix4 (0 : Fin 1) cc (0 : Fin 1) (0 : Fin 1)) := by
  obtain ⟨-, -, -, -, e0, e1, e2, e3, -⟩ := idx_facts t
  show V m c main_arg1 (((cfg0.win 1).blk t).view.emb (ix4 (0 : Fin 1) cc (0 : Fin 1) (0 : Fin 1))) = _
  have e : ((cfg0.win 1).blk t).view.emb (ix4 (0 : Fin 1) cc (0 : Fin 1) (0 : Fin 1)) = ix4 (0 : Fin 1) cc (0 : Fin 1) (0 : Fin 1) := by
    funext a; apply Fin.ext
    match a with
    | ⟨0, _⟩ => show win0_1.index t (0 : Fin 4) * 1 + 1 * 0 = 0; omega
    | ⟨1, _⟩ => show win0_1.index t (1 : Fin 4) * 32 + 1 * cc.val = cc.val; omega
    | ⟨2, _⟩ => show win0_1.index t (2 : Fin 4) * 1 + 1 * 0 = 0; omega
    | ⟨3, _⟩ => show win0_1.index t (3 : Fin 4) * 1 + 1 * 0 = 0; omega
  rw [e, V_main_arg1]

/-- `beta_a`'s block is the whole of `beta_a` at every point. -/
theorem iblk2_apply (c : Dev nD) (t : Fin cfg0.N) (cc : Fin 32) :
    iblk m c 2 t (ix3 (0 : Fin 1) cc (0 : Fin 1))
      = m ((c : Thread nD τ).loc main_arg2) (ix3 (0 : Fin 1) cc (0 : Fin 1)) := by
  obtain ⟨-, -, -, -, -, -, -, -, e0, e1, e2, -⟩ := idx_facts t
  show V m c main_arg2 (((cfg0.win 2).blk t).view.emb (ix3 (0 : Fin 1) cc (0 : Fin 1))) = _
  have e : ((cfg0.win 2).blk t).view.emb (ix3 (0 : Fin 1) cc (0 : Fin 1)) = ix3 (0 : Fin 1) cc (0 : Fin 1) := by
    funext a; apply Fin.ext
    match a with
    | ⟨0, _⟩ => show win0_2.index t (0 : Fin 3) * 1 + 1 * 0 = 0; omega
    | ⟨1, _⟩ => show win0_2.index t (1 : Fin 3) * 32 + 1 * cc.val = cc.val; omega
    | ⟨2, _⟩ => show win0_2.index t (2 : Fin 3) * 1 + 1 * 0 = 0; omega
  rw [e, V_main_arg2]

/-! ## What a point writes back, and the cover -/

/-- The result function at an index of point `t`'s block. -/
theorem G_block (c : Dev nD) (t : Fin cfg0.N) (y : S1x32x17.Idx) :
    G m c (((cfg0.win 3).blk t).view.emb y)
      = result (m ((c : Thread nD τ).loc main_arg0)) (m ((c : Thread nD τ).loc main_arg1)) (m ((c : Thread nD τ).loc main_arg2))
          (bt t) (y 1) (y 2) := by
  obtain ⟨-, -, -, -, -, -, -, -, -, -, -, e0, e1, e2⟩ := idx_facts t
  have hy0 : (y 0).val < 1 := (y 0).isLt
  have e : ((cfg0.win 3).blk t).view.emb y = ix3 (bt t) (y 1) (y 2) := by
    funext a; apply Fin.ext
    match a with
    | ⟨0, _⟩ => show win0_3.index t (0 : Fin 3) * 1 + 1 * (y 0).val = t.val; omega
    | ⟨1, _⟩ => show win0_3.index t (1 : Fin 3) * 32 + 1 * (y 1).val = (y 1).val; omega
    | ⟨2, _⟩ => show win0_3.index t (2 : Fin 3) * 17 + 1 * (y 2).val = (y 2).val; omega
  rw [e]
  rfl

/-- WHAT POINT `t` WRITES BACK is block `t` of the result function. -/
theorem flushed_eq (c : Dev nD) (t : Fin cfg0.N) :
    (dats m 0 c).flushed 3 t = ((cfg0.win 3).blk t).view.read (Elt Ideal) (G m c) := by
  rw [Cert.KernelIdeal.Value.flushed3_A]
  funext y
  show out0_A_3 c (grid0.coords t) (ms0_0 t) (hs0_0 t) (ms0_1 t) (hs0_1 t) (ms0_2 t) (hs0_2 t) (ms0_3 t) (hs0_3 t)
      (iblk m c 0 t) (iblk m c 1 t) (iblk m c 2 t) y = G m c (((cfg0.win 3).blk t).view.emb y)
  refine (out_apply_idx (iblk m c 0 t) (iblk m c 1 t) (iblk m c 2 t) c (grid0.coords t) (ms0_0 t) (hs0_0 t) (ms0_1 t) (hs0_1 t)
    (ms0_2 t) (hs0_2 t) (ms0_3 t) (hs0_3 t) y).trans ?_
  rw [G_block]
  have hV : Vb (iblk m c 0 t) = poseOf (m ((c : Thread nD τ).loc main_arg0)) (bt t) :=
    funext fun cc => funext fun p => funext fun k => iblk0_apply m c t 0 cc (Fin.castSucc p) k
  have hA : Ab (iblk m c 0 t) = actOf (m ((c : Thread nD τ).loc main_arg0)) (bt t) :=
    funext fun cc => funext fun k => iblk0_apply m c t 0 cc (Fin.last 16) k
  have hbv : bvb (iblk m c 1 t) = biasV (m ((c : Thread nD τ).loc main_arg1)) := funext fun cc => iblk1_apply m c t cc
  have hba : bab (iblk m c 2 t) = biasA (m ((c : Thread nD τ).loc main_arg2)) := funext fun cc => iblk2_apply m c t cc
  rw [hV, hA, hbv, hba]
  rfl

/-- An index of the array is in point `t`'s block iff each coordinate is in the block's range on its axis. -/
theorem mem_blk (t : Fin cfg0.N) (i : S64x32x17.Idx) :
    i ∈ ((cfg0.win 3).blk t).view.set ↔ ∀ a : Fin 3, win0_3.index t a * S1x32x17.size a ≤ (i a).val ∧ (i a).val < win0_3.index t a * S1x32x17.size a + S1x32x17.size a := by
  show i ∈ ((View.whole main_v0).slice (win0_3.rect t)).set ↔ _
  rw [View.set_slice_whole, Rect.mem_set_unit]
  exact Iff.rfl

/-- Every index of the result array is in the block of the point of its batch coordinate. -/
theorem cover (i : S64x32x17.Idx) : ∃ t : Fin cfg0.N, (cfg0.win 3).flush t = true ∧ i ∈ ((cfg0.win 3).blk t).view.set := by
  have hN : cfg0.N = 64 := N_0
  have h0 : (i 0).val < 64 := (i 0).isLt
  have h1 : (i 1).val < 32 := (i 1).isLt
  have h2 : (i 2).val < 17 := (i 2).isLt
  let t : Fin cfg0.N := ⟨(i 0).val, by omega⟩
  obtain ⟨-, -, -, -, -, -, -, -, -, -, -, e0, e1, e2⟩ := idx_facts t
  have et : t.val = (i 0).val := rfl
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 32 ≤ (i 1).val ∧ (i 1).val < win0_3.index t (1 : Fin 3) * 32 + 32; omega
  | ⟨2, _⟩ => show win0_3.index t (2 : Fin 3) * 17 ≤ (i 2).val ∧ (i 2).val < win0_3.index t (2 : Fin 3) * 17 + 17; omega

/-- THE ARRAY after the run. -/
theorem final (c : Dev nD) : (dats m 0 c).arrAt 3 cfg0.N = G m c :=
  (dats m 0 c).arrAt_eq_of_cover 3 (G m c) (fun t _ => flushed_eq m c t) cover

/-- The run, read: the result array at the routed capsules of the launch contents, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.RefLayout.lean ====
/-
  The host program's layout operations and sums over one axis, read at an index given by its coordinates.

  The reference keeps the batch axis in front and the 1152 input capsules on axis 1: a per-capsule quantity is a
  `[64, 32, 1]` column or a `[64, 1, 32, 16]` table, spread over the input capsules by `broadcast_in_dim`; each lemma says
  which entry of its operand one such operation reads.  At the extended reals a sum over one axis is the initial value
  plus the finite sum over that axis's coordinate.
-/
import proofs.«120217_j75625784148290_2_alg».proof.ReferenceIdeal
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.Layout

open Cert.ReferenceIdeal Idealize.ShloMosaic Idealize.ShloMosaic.ValueIdx

variable [Facts]
open Facts₀ Facts

/-! ## Slices of the votes along the last axis -/

/-- The pose columns `votes[..., 0:16]`. -/
theorem slice_pose_apply {α : Type} (x : S64x1152x32x17.Idx → α) (b : Fin 64) (k : Fin 1152) (c : Fin 32) (p : Fin 16) :
    extractStridedSlice S64x1152x32x16 ![0, 0, 0, 0] x slices_S64x1152x32x17_S64x1152x32x16_0_0_0_0 (ix4 b k c p)
      = x (ix4 b k c (Fin.castSucc p)) :=
  extractStridedSlice_apply _ x _ _ _ (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)

/-- The activation column `votes[..., 16:17]`. -/
theorem slice_act_apply {α : Type} (x : S64x1152x32x17.Idx → α) (b : Fin 64) (k : Fin 1152) (c : Fin 32) (u : Fin 1) :
    extractStridedSlice S64x1152x32x1 ![0, 0, 0, 16] x slices_S64x1152x32x17_S64x1152x32x1_0_0_0_16 (ix4 b k c u)
      = x (ix4 b k c (Fin.last 16)) :=
  extractStridedSlice_apply _ x _ _ _ (fun a => by
    match a with
    | ⟨0, _⟩ => exact (Nat.zero_add _).symm
    | ⟨1, _⟩ => exact (Nat.zero_add _).symm
    | ⟨2, _⟩ => exact (Nat.zero_add _).symm
    | ⟨3, _⟩ =>
      have hu : u.val = 0 := by omega
      show 16 = 16 + u.val
      omega)

/-! ## Shape casts that drop, add or move a unit axis -/

theorem cast_drop_last4_apply {α : Type} (x : S64x1152x32x1.Idx → α) (b : Fin 64) (k : Fin 1152) (c : Fin 32) :
    shapeCast S64x1152x32 x shapeCasts_S64x1152x32x1_S64x1152x32 (ix3 b k c) = x (ix4 b k c (0 : Fin 1)) :=
  shapeCast_apply x _ _ _ (by
    rw [Shape.rowMajor_val_four, Shape.rowMajor_val_three]
    show ((b.val * 1152 + k.val) * 32 + c.val) * 1 + 0 = (b.val * 1152 + k.val) * 32 + c.val
    omega)

theorem cast_move_unit_apply {α : Type} (x : S64x1x32x16.Idx → α) (b : Fin 64) (c : Fin 32) (u : Fin 1) (p : Fin 16) :
    shapeCast S64x32x1x16 x shapeCasts_S64x1x32x16_S64x32x1x16 (ix4 b c u p) = x (ix4 b (0 : Fin 1) c p) :=
  shapeCast_apply x _ _ _ (by
    have hu : u.val = 0 := by omega
    rw [Shape.rowMajor_val_four, Shape.rowMajor_val_four]
    show ((b.val * 1 + 0) * 32 + c.val) * 16 + p.val = ((b.val * 32 + c.val) * 1 + u.val) * 16 + p.val
    omega)

theorem cast_add_last_apply {α : Type} (x : S64x32x1.Idx → α) (b : Fin 64) (c : Fin 32) (u u' : Fin 1) :
    shapeCast S64x32x1x1 x shapeCasts_S64x32x1_S64x32x1x1 (ix4 b c u u') = x (ix3 b c (0 : Fin 1)) :=
  shapeCast_apply x _ _ _ (by
    have hu : u.val = 0 := by omega
    have hu' : u'.val = 0 := by omega
    rw [Shape.rowMajor_val_three, Shape.rowMajor_val_four]
    show (b.val * 32 + c.val) * 1 + 0 = ((b.val * 32 + c.val) * 1 + u.val) * 1 + u'.val
    omega)

theorem cast_drop_last3_apply {α : Type} (x : S64x32x1.Idx → α) (b : Fin 64) (c : Fin 32) :
    shapeCast S64x32 x shapeCasts_S64x32x1_S64x32 (ix2 b c) = x (ix3 b c (0 : Fin 1)) :=
  shapeCast_apply x _ _ _ (by
    rw [Shape.rowMajor_val_three, Shape.rowMajor_val_two]
    show (b.val * 32 + c.val) * 1 + 0 = b.val * 32 + c.val
    omega)

theorem cast_drop_mid_apply {α : Type} (x : S64x1x32x16.Idx → α) (b : Fin 64) (c : Fin 32) (p : Fin 16) :
    shapeCast S64x32x16 x shapeCasts_S64x1x32x16_S64x32x16 (ix3 b c p) = x (ix4 b (0 : Fin 1) c p) :=
  shapeCast_apply x _ _ _ (by
    rw [Shape.rowMajor_val_four, Shape.rowMajor_val_three]
    show ((b.val * 1 + 0) * 32 + c.val) * 16 + p.val = (b.val * 32 + c.val) * 16 + p.val
    omega)

theorem cast_add_last2_apply {α : Type} (x : S64x32.Idx → α) (b : Fin 64) (c : Fin 32) (u : Fin 1) :
    shapeCast S64x32x1 x shapeCasts_S64x32_S64x32x1 (ix3 b c u) = x (ix2 b c) :=
  shapeCast_apply x _ _ _ (by
    have hu : u.val = 0 := by omega
    rw [Shape.rowMajor_val_two, Shape.rowMajor_val_three]
    show b.val * 32 + c.val = (b.val * 32 + c.val) * 1 + u.val
    omega)

/-! ## Broadcasts -/

/-- A `[64, 1152, 32]` array given a trailing unit axis. -/
theorem bc_resp_col_apply {α : Type} (x : S64x1152x32.Idx → α) (b : Fin 64) (k : Fin 1152) (c : Fin 32) (u : Fin 1) :
    broadcastInDim S64x1152x32x1 ![0, 1, 2] bcast_S64x1152x32_S64x1152x32x1_0_1_2 x (ix4 b k c u) = x (ix3 b k c) :=
  broadcastInDim_apply _ _ x _ _ (fun a => by
    match a with
    | ⟨0, _⟩ => rfl
    | ⟨1, _⟩ => rfl
    | ⟨2, _⟩ => rfl)

/-- A per-vote weight repeated over the 16 pose coordinates. -/
theorem bc_resp_pose_apply {α : Type} (x : S64x1152x32x1.Idx → α) (b : Fin 64) (k : Fin 1152) (c : Fin 32) (p : Fin 16) :
    broadcastInDim S64x1152x32x16 ![0, 1, 2, 3] bcast_S64x1152x32x1_S64x1152x32x16_0_1_2_3 x (ix4 b k c p) = x (ix4 b k c (0 : Fin 1)) :=
  broadcastInDim_apply _ _ x _ _ (fun a => by
    match a with
    | ⟨0, _⟩ => rfl
    | ⟨1, _⟩ => rfl
    | ⟨2, _⟩ => rfl
    | ⟨3, _⟩ => rfl)

/-- A per-capsule column repeated over the 16 pose coordinates. -/
theorem bc_mass_pose_apply {α : Type} (x : S64x32x1.Idx → α) (b : Fin 64) (c : Fin 32) (p : Fin 16) :
    broadcastInDim S64x32x16 ![0, 1, 2] bcast_S64x32x1_S64x32x16_0_1_2 x (ix3 b c p) = x (ix3 b c (0 : Fin 1)) :=
  broadcastInDim_apply _ _ x _ _ (fun a => by
    match a with
    | ⟨0, _⟩ => rfl
    | ⟨1, _⟩ => rfl
    | ⟨2, _⟩ => rfl)

/-- A per-capsule table given a unit axis in the input capsules' place. -/
theorem bc_table_unit_apply {α : Type} (x : S64x32x16.Idx → α) (b : Fin 64) (u : Fin 1) (c : Fin 32) (p : Fin 16) :
    broadcastInDim S64x1x32x16 ![0, 2, 3] bcast_S64x32x16_S64x1x32x16_0_2_3 x (ix4 b u c p) = x (ix3 b c p) :=
  broadcastInDim_apply _ _ x _ _ (fun a => by
    match a with
    | ⟨0, _⟩ => rfl
    | ⟨1, _⟩ => rfl
    | ⟨2, _⟩ => rfl)

/-- A per-capsule table repeated over the 1152 input capsules. -/
theorem bc_table_votes_apply {α : Type} (x : S64x1x32x16.Idx → α) (b : Fin 64) (k : Fin 1152) (c : Fin 32) (p : Fin 16) :
    broadcastInDim S64x1152x32x16 ![0, 1, 2, 3] bcast_S64x1x32x16_S64x1152x32x16_0_1_2_3 x (ix4 b k c p) = x (ix4 b (0 : Fin 1) c p) :=
  broadcastInDim_apply _ _ x _ _ (fun a => by
    match a with
    | ⟨0, _⟩ => rfl
    | ⟨1, _⟩ => rfl
    | ⟨2, _⟩ => rfl
    | ⟨3, _⟩ => rfl)

/-- `beta_v` repeated over the batch and the pose coordinates. -/
theorem bc_betaV_apply {α : Type} (x : S1x32x1x1.Idx → α) (b : Fin 64) (c : Fin 32) (u : Fin 1) (p : Fin 16) :
    broadcastInDim S64x32x1x16 ![0, 1, 2, 3] bcast_S1x32x1x1_S64x32x1x16_0_1_2_3 x (ix4 b c u p) = x (ix4 (0 : Fin 1) c (0 : Fin 1) (0 : Fin 1)) :=
  broadcastInDim_apply _ _ x _ _ (fun a => by
    match a with
    | ⟨0, _⟩ => rfl
    | ⟨1, _⟩ => rfl
    | ⟨2, _⟩ => rfl
    | ⟨3, _⟩ => rfl)

/-- A `[64, 32, 1, 1]` column repeated over the pose coordinates. -/
theorem bc_mass4_pose_apply {α : Type} (x : S64x32x1x1.Idx → α) (b : Fin 64) (c : Fin 32) (u : Fin 1) (p : Fin 16) :
    broadcastInDim S64x32x1x16 ![0, 1, 2, 3] bcast_S64x32x1x1_S64x32x1x16_0_1_2_3 x (ix4 b c u p) = x (ix4 b c (0 : Fin 1) (0 : Fin 1)) :=
  broadcastInDim_apply _ _ x _ _ (fun a => by
    match a with
    | ⟨0, _⟩ => rfl
    | ⟨1, _⟩ => rfl
    | ⟨2, _⟩ => rfl
    | ⟨3, _⟩ => rfl)

/-- `beta_a` repeated over the batch. -/
theorem bc_betaA_apply {α : Type} (x : S1x32x1.Idx → α) (b : Fin 64) (c : Fin 32) (u : Fin 1) :
    broadcastInDim S64x32x1 ![0, 1, 2] bcast_S1x32x1_S64x32x1_0_1_2 x (ix3 b c u) = x (ix3 (0 : Fin 1) c (0 : Fin 1)) :=
  broadcastInDim_apply _ _ x _ _ (fun a => by
    match a with
    | ⟨0, _⟩ => rfl
    | ⟨1, _⟩ => rfl
    | ⟨2, _⟩ => rfl)

/-- The activations given a unit axis in the input capsules' place. -/
theorem bc_act_unit_apply {α : Type} (x : S64x32.Idx → α) (b : Fin 64) (u : Fin 1) (c : Fin 32) :
    broadcastInDim S64x1x32 ![0, 2] bcast_S64x32_S64x1x32_0_2 x (ix3 b u c) = x (ix2 b c) :=
  broadcastInDim_apply _ _ x _ _ (fun a => by
    match a with
    | ⟨0, _⟩ => rfl
    | ⟨1, _⟩ => rfl)

/-- The activations repeated over the input capsules. -/
theorem bc_act_votes_apply {α : Type} (x : S64x1x32.Idx → α) (b : Fin 64) (k : Fin 1152) (c : Fin 32) :
    broadcastInDim S64x1152x32 ![0, 1, 2] bcast_S64x1x32_S64x1152x32_0_1_2 x (ix3 b k c) = x (ix3 b (0 : Fin 1) c) :=
  broadcastInDim_apply _ _ x _ _ (fun a => by
    match a with
    | ⟨0, _⟩ => rfl
    | ⟨1, _⟩ => rfl
    | ⟨2, _⟩ => rfl)

/-- The normalisers given a trailing unit axis. -/
theorem bc_norm_unit_apply {α : Type} (x : S64x1152.Idx → α) (b : Fin 64) (k : Fin 1152) (u : Fin 1) :
    broadcastInDim S64x1152x1 ![0, 1] bcast_S64x1152_S64x1152x1_0_1 x (ix3 b k u) = x (ix2 b k) :=
  broadcastInDim_apply _ _ x _ _ (fun a => by
    match a with
    | ⟨0, _⟩ => rfl
    | ⟨1, _⟩ => rfl)

/-- The normalisers repeated over the output capsules. -/
theorem bc_norm_caps_apply {α : Type} (x : S64x1152x1.Idx → α) (b : Fin 64) (k : Fin 1152) (c : Fin 32) :
    broadcastInDim S64x1152x32 ![0, 1, 2] bcast_S64x1152x1_S64x1152x32_0_1_2 x (ix3 b k c) = x (ix3 b k (0 : Fin 1)) :=
  broadcastInDim_apply _ _ x _ _ (fun a => by
    match a with
    | ⟨0, _⟩ => rfl
    | ⟨1, _⟩ => rfl
    | ⟨2, _⟩ => rfl)

/-- A scalar constant broadcast to any shape reads the constant's value everywhere. -/
theorem bc_const_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-! ## Sums over one axis, at the extended reals -/

/-- The sum over the input capsules of a `[64, 1152, 32, 1]` array. -/
theorem sum_votes1_apply (x : FVec Ideal S64x1152x32x1 .f32) (init : FVec Ideal S_ .f32) (b : Fin 64) (c : Fin 32) (u : Fin 1) :
    Host.reduceAdd x init reducesTo_S64x1152x32x1_S64x32x1_d1 h_S_ (ix3 b c u)
      = init ix0 + ∑ k : Fin 1152, x (ix4 b k c u) :=
  (hostReduceAdd_apply x init reducesTo_S64x1152x32x1_S64x32x1_d1 h_S_ (ix3 b c u)).trans <|
  (Ideal.hostReduceAdd_single reducesTo_S64x1152x32x1_S64x32x1_d1 (by decide) x (init (Shape.Idx.first h_S_)) (ix3 b c u)).trans <| by
    rw [eq_ix0 (Shape.Idx.first h_S_)]
    exact congrArg (init ix0 + ·) (Finset.sum_congr rfl fun k _ => congrArg x (funext fun ax => Fin.ext (by
      match ax with
      | ⟨0, _⟩ => rfl
      | ⟨1, _⟩ => rfl
      | ⟨2, _⟩ => rfl
      | ⟨3, _⟩ => rfl)))

/-- The sum over the input capsules of a `[64, 1152, 32, 16]` array. -/
theorem sum_votes16_apply (x : FVec Ideal S64x1152x32x16 .f32) (init : FVec Ideal S_ .f32) (b : Fin 64) (c : Fin 32) (p : Fin 16) :
    Host.reduceAdd x init reducesTo_S64x1152x32x16_S64x32x16_d1 h_S_ (ix3 b c p)
      = init ix0 + ∑ k : Fin 1152, x (ix4 b k c p) :=
  (hostReduceAdd_apply x init reducesTo_S64x1152x32x16_S64x32x16_d1 h_S_ (ix3 b c p)).trans <|
  (Ideal.hostReduceAdd_single reducesTo_S64x1152x32x16_S64x32x16_d1 (by decide) x (init (Shape.Idx.first h_S_)) (ix3 b c p)).trans <| by
    rw [eq_ix0 (Shape.Idx.first h_S_)]
    exact congrArg (init ix0 + ·) (Finset.sum_congr rfl fun k _ => congrArg x (funext fun ax => Fin.ext (by
      match ax with
      | ⟨0, _⟩ => rfl
      | ⟨1, _⟩ => rfl
      | ⟨2, _⟩ => rfl
      | ⟨3, _⟩ => rfl)))

/-- The sum over the pose coordinates of a `[64, 32, 1, 16]` array. -/
theorem sum_pose_cost_apply (x : FVec Ideal S64x32x1x16 .f32) (init : FVec Ideal S_ .f32) (b : Fin 64) (c : Fin 32) (u : Fin 1) :
    Host.reduceAdd x init reducesTo_S64x32x1x16_S64x32x1_d3 h_S_ (ix3 b c u)
      = init ix0 + ∑ p : Fin 16, x (ix4 b c u p) :=
  (hostReduceAdd_apply x init reducesTo_S64x32x1x16_S64x32x1_d3 h_S_ (ix3 b c u)).trans <|
  (Ideal.hostReduceAdd_single reducesTo_S64x32x1x16_S64x32x1_d3 (by decide) x (init (Shape.Idx.first h_S_)) (ix3 b c u)).trans <| by
    rw [eq_ix0 (Shape.Idx.first h_S_)]
    exact congrArg (init ix0 + ·) (Finset.sum_congr rfl fun p _ => congrArg x (funext fun ax => Fin.ext (by
      match ax with
      | ⟨0, _⟩ => rfl
      | ⟨1, _⟩ => rfl
      | ⟨2, _⟩ => rfl
      | ⟨3, _⟩ => rfl)))

/-- The sum over the pose coordinates of a `[64, 1152, 32, 16]` array. -/
theorem sum_pose_votes_apply (x : FVec Ideal S64x1152x32x16 .f32) (init : FVec Ideal S_ .f32) (b : Fin 64) (k : Fin 1152) (c : Fin 32) :
    Host.reduceAdd x init reducesTo_S64x1152x32x16_S64x1152x32_d3 h_S_ (ix3 b k c)
      = init ix0 + ∑ p : Fin 16, x (ix4 b k c p) :=
  (hostReduceAdd_apply x init reducesTo_S64x1152x32x16_S64x1152x32_d3 h_S_ (ix3 b k c)).trans <|
  (Ideal.hostReduceAdd_single reducesTo_S64x1152x32x16_S64x1152x32_d3 (by decide) x (init (Shape.Idx.first h_S_)) (ix3 b k c)).trans <| by
    rw [eq_ix0 (Shape.Idx.first h_S_)]
    exact congrArg (init ix0 + ·) (Finset.sum_congr rfl fun p _ => congrArg x (funext fun ax => Fin.ext (by
      match ax with
      | ⟨0, _⟩ => rfl
      | ⟨1, _⟩ => rfl
      | ⟨2, _⟩ => rfl
      | ⟨3, _⟩ => rfl)))

/-- The sum over the output capsules of a `[64, 1152, 32]` array. -/
theorem sum_caps_apply (x : FVec Ideal S64x1152x32 .f32) (init : FVec Ideal S_ .f32) (b : Fin 64) (k : Fin 1152) :
    Host.reduceAdd x init reducesTo_S64x1152x32_S64x1152_d2 h_S_ (ix2 b k)
      = init ix0 + ∑ c : Fin 32, x (ix3 b k c) :=
  (hostReduceAdd_apply x init reducesTo_S64x1152x32_S64x1152_d2 h_S_ (ix2 b k)).trans <|
  (Ideal.hostReduceAdd_single reducesTo_S64x1152x32_S64x1152_d2 (by decide) x (init (Shape.Idx.first h_S_)) (ix2 b k)).trans <| by
    rw [eq_ix0 (Shape.Idx.first h_S_)]
    exact congrArg (init ix0 + ·) (Finset.sum_congr rfl fun c _ => congrArg x (funext fun ax => Fin.ext (by
      match ax with
      | ⟨0, _⟩ => rfl
      | ⟨1, _⟩ => rfl
      | ⟨2, _⟩ => rfl)))

end Cert.ReferenceIdeal.Layout

end
-- ==== Proof.RefStages.lean ====
/-
  The reference's named intermediate arrays, read at an index, at the extended reals.

  The reference keeps every quantity batched: the votes are `[64, 1152, 32, 17]` (batch element, input capsule, output
  capsule, pose coordinate or activation), a per-capsule column is `[64, 32, 1]`, a per-capsule table
  `[64, 1, 32, 16]`.  Each lemma says that one named array, at the index of batch element `b`, is the corresponding
  quantity of the routing pass (Proof/Routing.lean) on that batch element's votes: the operations and their order are
  those of the pass, a host sum starts from the constant zero, and the logistic function is spelt
  `1 / (1 + exp (−x))`, which is its definition on the extended reals.
-/
import proofs.«120217_j75625784148290_2_alg».proof.Proof.Gen.ReferenceIdeal.Run
import proofs.«120217_j75625784148290_2_alg».proof.Proof.Routing
import proofs.«120217_j75625784148290_2_alg».proof.Proof.RefLayout
import Idealize.ShloMosaic.Lib.IdealHost

noncomputable section

namespace Cert.ReferenceIdeal.Stages

open Cert.ReferenceIdeal Cert.ReferenceIdeal.Gen Cert.ReferenceIdeal.Value Cert.ReferenceIdeal.Layout
open Idealize.ShloMosaic Idealize.ShloMosaic.ValueIdx Idealize.ShloMosaic.StableHlo Routing

/-! ## The host's pointwise operations at an index -/

theorem hsqrt_apply {s : Shape} (v : FVec Ideal s .f32) (i : s.Idx) : Host.sqrt v i = Ideal.sqrt (v i) := rfl
theorem hlog_apply {s : Shape} (v : FVec Ideal s .f32) (i : s.Idx) : Host.log v i = Ideal.log (v i) := rfl
theorem hexp_apply {s : Shape} (v : FVec Ideal s .f32) (i : s.Idx) : Host.exp v i = Ideal.exp (v i) := rfl
theorem hnegf_apply {s : Shape} (v : FVec Ideal s .f32) (i : s.Idx) : Host.negf v i = -(v i) := rfl

variable (V0 : Valuation τ sig (Elt Ideal))

/-- Batch element `b`'s poses, input activations, and the two biases, of the launch contents. -/
abbrev Vr (b : Fin 64) : Fin 32 → Fin 16 → Fin 1152 → EReal := poseOf (V0 (Proc.devRef .tc main_arg0)) b
abbrev Ar (b : Fin 64) : Fin 32 → Fin 1152 → EReal := actOf (V0 (Proc.devRef .tc main_arg0)) b
abbrev bvr : Fin 32 → EReal := biasV (V0 (Proc.devRef .tc main_arg1))
abbrev bar : Fin 32 → EReal := biasA (V0 (Proc.devRef .tc main_arg2))

/-! ## The votes -/

theorem v0_apply (b : Fin 64) (k : Fin 1152) (c : Fin 32) (p : Fin 16) : res_main_v0 V0 (ix4 b k c p) = Vr V0 b c p k := by
  unfold res_main_v0
  rw [slice_pose_apply]
  rfl

theorem v2_apply (b : Fin 64) (k : Fin 1152) (c : Fin 32) : res_main_v2 V0 (ix3 b k c) = Ar V0 b c k := by
  unfold res_main_v2
  show shapeCast S64x1152x32 _ shapeCasts_S64x1152x32x1_S64x1152x32 (ix3 b k c) = _
  rw [cast_drop_last4_apply, slice_act_apply]
  rfl

theorem v5_apply (b : Fin 64) (k : Fin 1152) (c : Fin 32) (u : Fin 1) : res_main_v5 V0 (ix4 b k c u) = r1 (Ar V0 b) c k := by
  unfold res_main_v5
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v2_apply]
  rfl

/-! ## Pass 1 -/

theorem v8_apply (b : Fin 64) (c : Fin 32) (u : Fin 1) : res_main_v8 V0 (ix3 b c u) = mass (r1 (Ar V0 b)) c := by
  unfold res_main_v8
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v5_apply]
  rfl

theorem v16_apply (b : Fin 64) (k : Fin 1152) (c : Fin 32) (p : Fin 16) :
    res_main_v16 V0 (ix4 b k c p) = Vr V0 b c p k - mean (Vr V0 b) (r1 (Ar V0 b)) c p := by
  unfold res_main_v16
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v0_apply, v5_apply, v8_apply]
  rfl

theorem v19_apply (b : Fin 64) (k : Fin 1152) (c : Fin 32) (p : Fin 16) :
    res_main_v19 V0 (ix4 b k c p) = dev2 (Vr V0 b) (r1 (Ar V0 b)) c p k := by
  unfold res_main_v19
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v16_apply]
  rfl

theorem v27_apply (b : Fin 64) (u : Fin 1) (c : Fin 32) (p : Fin 16) :
    res_main_v27 V0 (ix4 b u c p) = var (Vr V0 b) (r1 (Ar V0 b)) c p := by
  unfold res_main_v27
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v5_apply, v8_apply, v19_apply]
  rfl

theorem v31_apply (b : Fin 64) (u : Fin 1) (c : Fin 32) (p : Fin 16) :
    res_main_v31 V0 (ix4 b u c p) = logsd (Vr V0 b) (r1 (Ar V0 b)) c p := by
  unfold res_main_v31
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v27_apply]
  rfl

theorem v63_apply (b : Fin 64) (k : Fin 1152) (c : Fin 32) :
    res_main_v63 V0 (ix3 b k c) = lik (Vr V0 b) (bvr V0) (bar V0) lam1 (r1 (Ar V0 b)) c k := by
  unfold res_main_v63
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v8_apply, v19_apply, v27_apply, v31_apply]
  rfl

theorem v73_apply (b : Fin 64) (k : Fin 1152) (c : Fin 32) (u : Fin 1) :
    res_main_v73 V0 (ix4 b k c u) = r2 (Vr V0 b) (Ar V0 b) (bvr V0) (bar V0) c k := by
  unfold res_main_v73
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v2_apply, v63_apply]
  rfl

/-! ## Pass 2 -/

theorem v76_apply (b : Fin 64) (c : Fin 32) (u : Fin 1) : res_main_v76 V0 (ix3 b c u) = mass (r2 (Vr V0 b) (Ar V0 b) (bvr V0) (bar V0)) c := by
  unfold res_main_v76
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v73_apply]
  rfl

theorem v84_apply (b : Fin 64) (k : Fin 1152) (c : Fin 32) (p : Fin 16) :
    res_main_v84 V0 (ix4 b k c p) = Vr V0 b c p k - mean (Vr V0 b) (r2 (Vr V0 b) (Ar V0 b) (bvr V0) (bar V0)) c p := by
  unfold res_main_v84
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v0_apply, v73_apply, v76_apply]
  rfl

theorem v87_apply (b : Fin 64) (k : Fin 1152) (c : Fin 32) (p : Fin 16) :
    res_main_v87 V0 (ix4 b k c p) = dev2 (Vr V0 b) (r2 (Vr V0 b) (Ar V0 b) (bvr V0) (bar V0)) c p k := by
  unfold res_main_v87
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v84_apply]
  rfl

theorem v95_apply (b : Fin 64) (u : Fin 1) (c : Fin 32) (p : Fin 16) :
    res_main_v95 V0 (ix4 b u c p) = var (Vr V0 b) (r2 (Vr V0 b) (Ar V0 b) (bvr V0) (bar V0)) c p := by
  unfold res_main_v95
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v73_apply, v76_apply, v87_apply]
  rfl

theorem v99_apply (b : Fin 64) (u : Fin 1) (c : Fin 32) (p : Fin 16) :
    res_main_v99 V0 (ix4 b u c p) = logsd (Vr V0 b) (r2 (Vr V0 b) (Ar V0 b) (bvr V0) (bar V0)) c p := by
  unfold res_main_v99
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v95_apply]
  rfl

theorem v131_apply (b : Fin 64) (k : Fin 1152) (c : Fin 32) :
    res_main_v131 V0 (ix3 b k c) = lik (Vr V0 b) (bvr V0) (bar V0) lam2 (r2 (Vr V0 b) (Ar V0 b) (bvr V0) (bar V0)) c k := by
  unfold res_main_v131
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v76_apply, v87_apply, v95_apply, v99_apply]
  rfl

theorem v141_apply (b : Fin 64) (k : Fin 1152) (c : Fin 32) (u : Fin 1) :
    res_main_v141 V0 (ix4 b k c u) = r3 (Vr V0 b) (Ar V0 b) (bvr V0) (bar V0) c k := by
  unfold res_main_v141
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v2_apply, v131_apply]
  rfl

/-! ## Pass 3 -/

theorem v144_apply (b : Fin 64) (c : Fin 32) (u : Fin 1) : res_main_v144 V0 (ix3 b c u) = mass (r3 (Vr V0 b) (Ar V0 b) (bvr V0) (bar V0)) c := by
  unfold res_main_v144
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v141_apply]
  rfl

theorem v150_apply (b : Fin 64) (u : Fin 1) (c : Fin 32) (p : Fin 16) :
    res_main_v150 V0 (ix4 b u c p) = mean (Vr V0 b) (r3 (Vr V0 b) (Ar V0 b) (bvr V0) (bar V0)) c p := by
  unfold res_main_v150
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v0_apply, v141_apply, v144_apply]
  rfl

theorem v152_apply (b : Fin 64) (k : Fin 1152) (c : Fin 32) (p : Fin 16) :
    res_main_v152 V0 (ix4 b k c p) = Vr V0 b c p k - mean (Vr V0 b) (r3 (Vr V0 b) (Ar V0 b) (bvr V0) (bar V0)) c p := by
  unfold res_main_v152
  simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v0_apply, v150_apply]

end Cert.ReferenceIdeal.Stages

end
-- ==== Proof.RefResult.lean ====
/-
  The reference's result array is the routed capsules of every batch element.

  The result is the concatenation, along the last axis, of the third pass's mean pose (`[64, 32, 16]`) and its output
  activation (`[64, 32, 1]`): an index with last coordinate below 16 reads the first piece there, the index with last
  coordinate 16 reads the second piece at 0.  The third pass's variance and log standard deviation are not named arrays
  of the run; they are read inside the activation's term, from the third pass's named weights, masses and deviations.
-/
import proofs.«120217_j75625784148290_2_alg».proof.Proof.RefStages

noncomputable section

namespace Cert.ReferenceIdeal.Stages

open Cert.ReferenceIdeal Cert.ReferenceIdeal.Gen Cert.ReferenceIdeal.Value Cert.ReferenceIdeal.Layout
open Idealize.ShloMosaic Idealize.ShloMosaic.ValueIdx Idealize.ShloMosaic.StableHlo Routing

variable (V0 : Valuation τ sig (Elt Ideal))

set_option maxRecDepth 8192 in
/-- The run's result term, as one function of the launch contents of the three arguments. -/
theorem result_eq :
    val4 V0 (no_index (Proc.devRef .tc main_v188))
      = resultArr (V0 (Proc.devRef .tc main_arg0)) (V0 (Proc.devRef .tc main_arg1)) (V0 (Proc.devRef .tc main_arg2)) := by
  rw [val4_main_v188]
  funext i
  obtain ⟨b, c, h, rfl⟩ : ∃ (b : Fin 64) (c : Fin 32) (h : Fin 17), i = ix3 b c h := ⟨i 0, i 1, i 2, eq_ix3 i⟩
  rw [resultArr_apply]
  unfold result out
  by_cases hh : h.val < 16
  · rw [dif_pos hh]
    rw [concatenate_pair_apply_left (t := S64x32x17) (s₁ := S64x32x16) (s₂ := S64x32x1) (2 : Fin S64x32x17.rank) _ _ _ (ix3 b c h) rfl (ix3 b c (⟨h.val, hh⟩ : Fin 16))
      (fun a => by
        match a with
        | ⟨0, _⟩ => rfl
        | ⟨1, _⟩ => rfl
        | ⟨2, _⟩ => rfl)]
    rw [cast_drop_mid_apply, v150_apply]
  · rw [dif_neg hh]
    have h16 : h.val = 16 := by have := h.isLt; omega
    rw [concatenate_pair_apply_right (t := S64x32x17) (s₁ := S64x32x16) (s₂ := S64x32x1) (2 : Fin S64x32x17.rank) _ _ _ (ix3 b c h) rfl rfl (ix3 b c (0 : Fin 1))
      (fun a ha => by
        match a with
        | ⟨0, _⟩ => rfl
        | ⟨1, _⟩ => rfl
        | ⟨2, _⟩ => exact absurd rfl ha)
      (by show 0 + 16 = h.val; omega)]
    simp (config := { index := false }) only [mulf_apply, addf_apply, subf_apply, hostDivf_apply, constant_apply, hsqrt_apply, hlog_apply, hexp_apply, hnegf_apply, bc_const_apply, slice_pose_apply, slice_act_apply, cast_drop_last4_apply, cast_move_unit_apply, cast_add_last_apply, cast_drop_last3_apply, cast_drop_mid_apply, cast_add_last2_apply, bc_resp_col_apply, bc_resp_pose_apply, bc_mass_pose_apply, bc_table_unit_apply, bc_table_votes_apply, bc_betaV_apply, bc_mass4_pose_apply, bc_betaA_apply, bc_act_unit_apply, bc_act_votes_apply, bc_norm_unit_apply, bc_norm_caps_apply, sum_votes1_apply, sum_votes16_apply, sum_pose_cost_apply, sum_pose_votes_apply, sum_caps_apply, Ideal.ofBits_zero_f32, Ideal.ofBits_one_f32, zero_add, v141_apply, v144_apply, v152_apply]
    rfl

end Cert.ReferenceIdeal.Stages

end
-- ==== Proof.lean ====
/-
  The kernel and the reference compute the same routed capsules.

  Both programs run three passes of expectation–maximisation routing (Proof/Routing.lean) over the same votes and biases
  and return the third pass's mean pose and output activation for each of 64 batch elements, 32 output capsules each.
  The kernel transposes the votes so that the 1152 input capsules lie on the last axis and handles one batch element per
  grid point; the reference keeps the batch axis in front throughout.  At the extended reals both perform the same
  operations in the same order on each entry — the sums over an axis are the same finite sums, the kernel's negation
  `0 − x` is `−x`, and its logistic function is the reference's `1 / (1 + exp (−x))` by definition — so the two result
  arrays are one function of the arguments, `Routing.resultArr`:
    • Proof/KernelStages.lean, KernelBlock.lean, KernelValue.lean read the kernel's run: each stage of the body at an
      index, the block a grid point writes back, and the 64 blocks tiling the result array;
    • Proof/RefStages.lean, RefResult.lean read the reference's run: each named intermediate array at an index, and
      the final concatenation.
  No precondition is used for the value: the argument never moves a factor across a sum or cancels anything.
  The three frame claims are the generated frame runs; the ideal pass rewrote nothing, so `preserves` is trivial.
-/
import proofs.«120217_j75625784148290_2_alg».proof.Defs
import proofs.«120217_j75625784148290_2_alg».proof.Proof.Gen.Kernel
import proofs.«120217_j75625784148290_2_alg».proof.Proof.Gen.Kernel.Frame
import proofs.«120217_j75625784148290_2_alg».proof.Proof.Gen.KernelIdeal
import proofs.«120217_j75625784148290_2_alg».proof.Proof.Gen.KernelIdeal.Frame
import proofs.«120217_j75625784148290_2_alg».proof.Proof.Gen.KernelIdeal.Value
import proofs.«120217_j75625784148290_2_alg».proof.Proof.Gen.ReferenceIdeal
import proofs.«120217_j75625784148290_2_alg».proof.Proof.Gen.ReferenceIdeal.Run
import proofs.«120217_j75625784148290_2_alg».proof.Proof.Gen.Pre_finite_inputs
import proofs.«120217_j75625784148290_2_alg».proof.Proof.KernelValue
import proofs.«120217_j75625784148290_2_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Routing.resultArr` of the argument arrays, which agree. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Value.val4_main_v188 (StableHlo.launchContents m' c)).symm.trans ?_
  refine (Cert.ReferenceIdeal.Stages.result_eq (StableHlo.launchContents m' c)).trans ?_
  show Routing.resultArr (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
